-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2x256 : Shape := ⟨3, ![4096, 2, 256]⟩
abbrev S4096 : Shape := ⟨1, ![4096]⟩
abbrev S_ : Shape := ⟨0, ![]⟩

class Facts : Prop where
  bcast_S_S4096x2x256 : S_.BroadcastsInDim S4096x2x256 (![] : Fin 0 → Fin S4096x2x256.rank)
  reducesTo_S4096x2x256_S_d0_1_2 : S4096x2x256.ReducesTo [0, 1, 2] S_
  h_S_ : 0 < S_.numel

variable [Facts]

def fn {F : FTy → Type} [FloatOps F] (main_arg0 : FVec F S4096x2x256 .f32) (main_arg1 : IVec S4096 32) : IVec S_ 1 :=
  let main_v0 : FVec F S4096x2x256 .f32 := Host.absf main_arg0
  let main_cst : FVec F S_ .f32 := constant S_ .f32 0x7F800000#32
  let main_v1 : FVec F S4096x2x256 .f32 := broadcastInDim S4096x2x256 ![] bcast_S_S4096x2x256 main_cst
  let main_v2 : IVec S4096x2x256 1 := cmpf .olt main_v0 main_v1
  let main_c : IVec S_ 1 := constantI S_ 1 1#1
  let main_v3 : IVec S_ 1 := (fun x v => Host.reduce IntOp.andi x v reducesTo_S4096x2x256_S_d0_1_2 h_S_) main_v2 main_c
  main_v3
-- ==== Kernel.lean ====
abbrev S4096x2x256 : Shape := ⟨3, ![4096, 2, 256]⟩
abbrev S4096 : Shape := ⟨1, ![4096]⟩
abbrev S2x4096x256 : Shape := ⟨3, ![2, 4096, 256]⟩
abbrev S8192x256 : Shape := ⟨2, ![8192, 256]⟩
abbrev S1x4096 : Shape := ⟨2, ![1, 4096]⟩
abbrev S2x4096 : Shape := ⟨2, ![2, 4096]⟩
abbrev S8192 : Shape := ⟨1, ![8192]⟩
abbrev S_ : Shape := ⟨0, ![]⟩
abbrev S8192x1 : Shape := ⟨2, ![8192, 1]⟩
abbrev S256x8192 : Shape := ⟨2, ![256, 8192]⟩
abbrev S1x8192 : Shape := ⟨2, ![1, 8192]⟩
abbrev S1024x256 : Shape := ⟨2, ![1024, 256]⟩
abbrev S256x1024 : Shape := ⟨2, ![256, 1024]⟩
abbrev S1024x1 : Shape := ⟨2, ![1024, 1]⟩
abbrev S1x1024 : Shape := ⟨2, ![1, 1024]⟩
abbrev S1024x1024 : Shape := ⟨2, ![1024, 1024]⟩
abbrev S1024 : Shape := ⟨1, ![1024]⟩

abbrev nBuf : Space → Nat
  | .hbm => 21
  | .vmem => 16
  | .smem => 0
  | _ => 0

abbrev bufTy : (tb : Table) → Fin (tcTables nBuf tb) → BufTy
  | .hbm, ⟨0, _⟩ => ⟨S4096x2x256, .f32⟩
  | .hbm, ⟨1, _⟩ => ⟨S4096, .i32⟩
  | .hbm, ⟨2, _⟩ => ⟨S2x4096x256, .f32⟩
  | .hbm, ⟨3, _⟩ => ⟨S8192x256, .f32⟩
  | .hbm, ⟨4, _⟩ => ⟨S1x4096, .i32⟩
  | .hbm, ⟨5, _⟩ => ⟨S2x4096, .i32⟩
  | .hbm, ⟨6, _⟩ => ⟨S8192, .i32⟩
  | .hbm, ⟨7, _⟩ => ⟨S8192x256, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S8192x256, .bf16⟩
  | .hbm, ⟨12, _⟩ => ⟨S256x8192, .f32⟩
  | .hbm, ⟨13, _⟩ => ⟨S256x8192, .bf16⟩
  | .hbm, ⟨14, _⟩ => ⟨S8192x1, .i32⟩
  | .hbm, ⟨15, _⟩ => ⟨S1x8192, .i32⟩
  | .hbm, ⟨16, _⟩ => ⟨S8192x1, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .local _ .vmem, ⟨0, _⟩ => ⟨S1024x256, .bf16⟩
  | .local _ .vmem, ⟨1, _⟩ => ⟨S1024x256, .bf16⟩
  | .local _ .vmem, ⟨2, _⟩ => ⟨S256x1024, .bf16⟩
  | .local _ .vmem, ⟨3, _⟩ => ⟨S256x1024, .bf16⟩
  | .local _ .vmem, ⟨4, _⟩ => ⟨S1024x1, .f32⟩
  | .local _ .vmem, ⟨5, _⟩ => ⟨S1024x1, .f32⟩
  | .local _ .vmem, ⟨6, _⟩ => ⟨S1024x1, .i32⟩
  | .local _ .vmem, ⟨7, _⟩ => ⟨S1024x1, .i32⟩
  | .local _ .vmem, ⟨8, _⟩ => ⟨S1x1024, .i32⟩
  | .local _ .vmem, ⟨9, _⟩ => ⟨S1x1024, .i32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | .local _ .vmem, ⟨13, _⟩ => ⟨S1024x1, .f32⟩
  | .local _ .vmem, ⟨14, _⟩ => ⟨S1024x1, .f32⟩
  | .local _ .vmem, ⟨15, _⟩ => ⟨S1024x1, .f32⟩
  | _, _ => ⟨S4096x2x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v75 : BitVec 1 := Scalar.cmpi .eq arg1 c7_i32
  let v76 : BitVec 32 := Scalar.extui v75
  let c0_i32_35 : BitVec 32 := 0#32
  let v77 : BitVec 1 := Scalar.cmpi .ne v76 c0_i32_35
  v77

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  transposes_S4096x2x256_S2x4096x256_1_0_2 : S4096x2x256.Transposes [1, 0, 2] S2x4096x256
  shapeCasts_S2x4096x256_S8192x256 : S2x4096x256.ShapeCasts S8192x256
  shapeCasts_S4096_S1x4096 : S4096.ShapeCasts S1x4096
  bcast_S1x4096_S2x4096_0_1 : S1x4096.BroadcastsInDim S2x4096 (![0, 1] : Fin 2 → Fin S2x4096.rank)
  shapeCasts_S2x4096_S8192 : S2x4096.ShapeCasts S8192
  reducesTo_S8192x256_S8192_d1 : S8192x256.ReducesTo [1] S8192
  h_S_ : 0 < S_.numel
  bcast_S8192_S8192x1_0 : S8192.BroadcastsInDim S8192x1 (![0] : Fin 1 → Fin S8192x1.rank)
  bitsLt_bf16_f32 : FTy.bits .bf16 < FTy.bits .f32
  transposes_S8192x256_S256x8192_1_0 : S8192x256.Transposes [1, 0] S256x8192
  shapeCasts_S8192_S8192x1 : S8192.ShapeCasts S8192x1
  shapeCasts_S8192_S1x8192 : S8192.ShapeCasts S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  iota_S1024x1024_d0_w32 : S1024x1024.Iotas .tc 32 [0]
  iota_S1024x1024_d1_w32 : S1024x1024.Iotas .tc 32 [1]
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  natLt_1_32 : 1 < 32
  reduces_S1024x1024_S1024 : S1024x1024.Reduces [1] S1024
  shapeCasts_S1024_S1024x1 : S1024.ShapeCasts S1024x1
  reducesTo_S8192x1_S_d0_1 : S8192x1.ReducesTo [0, 1] S_
  dot_S1024x256_S256x1024_S1024x1024_1_0_0_1_n_n_wf : DotDims.WF S1024x256 S256x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .bf16 = 32 ∨ (Rect.block (s := S8192x256) S1024x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S256x8192.size a
  hwx0_1 : ∀ i : grid0.Coords, EltTy.bits .bf16 = 32 ∨ (Rect.block (s := S256x8192) S256x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S8192x1.size a
  hwx0_3 : ∀ i : grid0.Coords, EltTy.bits .i32 = 32 ∨ (Rect.block (s := S8192x1) S1024x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x8192.size a
  hwx0_4 : ∀ i : grid0.Coords, EltTy.bits .i32 = 32 ∨ (Rect.block (s := S1x8192) S1x1024.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S8192x1.size a
  hwx0_5 : ∀ i : grid0.Coords, EltTy.bits .f32 = 32 ∨ (Rect.block (s := S8192x1) S1024x1.size (cc0_transform_5 i) (hinb0_5 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_v8) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1024x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v12) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1024x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4096x2x256 : Shape := ⟨3, ![4096, 2, 256]⟩
abbrev S4096 : Shape := ⟨1, ![4096]⟩
abbrev S2x4096x256 : Shape := ⟨3, ![2, 4096, 256]⟩
abbrev S8192x256 : Shape := ⟨2, ![8192, 256]⟩
abbrev S1x4096 : Shape := ⟨2, ![1, 4096]⟩
abbrev S2x4096 : Shape := ⟨2, ![2, 4096]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S_ : Shape := ⟨0, ![]⟩
abbrev S256x8192 : Shape := ⟨2, ![256, 8192]⟩

abbrev nBuf : Space → Nat
  | .hbm => 66
  | .vmem => 0
  | .smem => 0
  | _ => 0

abbrev bufTy : (tb : Table) → Fin (tcTables nBuf tb) → BufTy
  | .hbm, ⟨0, _⟩ => ⟨S4096x2x256, .f32⟩
  | .hbm, ⟨1, _⟩ => ⟨S4096, .i32⟩
  | .hbm, ⟨2, _⟩ => ⟨S2x4096x256, .f32⟩
  | .hbm, ⟨3, _⟩ => ⟨S8192x256, .f32⟩
  | .hbm, ⟨4, _⟩ => ⟨S1x4096, .i32⟩
  | .hbm, ⟨5, _⟩ => ⟨S2x4096, .i32⟩
  | .hbm, ⟨6, _⟩ => ⟨S8192, .i32⟩
  | .hbm, ⟨7, _⟩ => ⟨S8192x1, .i32⟩
  | .hbm, ⟨8, _⟩ => ⟨S1x8192, .i32⟩
  | .hbm, ⟨9, _⟩ => ⟨S8192x8192, .i32⟩
  | .hbm, ⟨10, _⟩ => ⟨S8192x8192, .i32⟩
  | .hbm, ⟨11, _⟩ => ⟨S8192x8192, .i1⟩
  | .hbm, ⟨12, _⟩ => ⟨S8192x8192, .f32⟩
  | .hbm, ⟨13, _⟩ => ⟨S8192x256, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S256x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S_, .f32⟩
  | .hbm, ⟨26, _⟩ => ⟨S8192x8192, .f32⟩
  | .hbm, ⟨27, _⟩ => ⟨S8192x8192, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S8192x8192, .f32⟩
  | .hbm, ⟨32, _⟩ => ⟨S8192x8192, .f32⟩
  | .hbm, ⟨33, _⟩ => ⟨S8192x8192, .i32⟩
  | .hbm, ⟨34, _⟩ => ⟨S8192x8192, .i32⟩
  | .hbm, ⟨35, _⟩ => ⟨S_, .i32⟩
  | .hbm, ⟨36, _⟩ => ⟨S8192x8192, .i32⟩
  | .hbm, ⟨37, _⟩ => ⟨S8192x8192, .i32⟩
  | .hbm, ⟨38, _⟩ => ⟨S8192x8192, .i1⟩
  | .hbm, ⟨39, _⟩ => ⟨S8192x8192, .f32⟩
  | .hbm, ⟨40, _⟩ => ⟨S_, .f32⟩
  | .hbm, ⟨41, _⟩ => ⟨S8192x8192, .f32⟩
  | .hbm, ⟨42, _⟩ => ⟨S8192x8192, .f32⟩
  | .hbm, ⟨43, _⟩ => ⟨S8192x8192, .f32⟩
  | .hbm, ⟨44, _⟩ => ⟨S8192x8192, .f32⟩
  | .hbm, ⟨45, _⟩ => ⟨S8192x8192, .f32⟩
  | .hbm, ⟨46, _⟩ => ⟨S_, .f32⟩
  | .hbm, ⟨47, _⟩ => ⟨S8192, .f32⟩
  | .hbm, ⟨48, _⟩ => ⟨S8192x1, .f32⟩
  | .hbm, ⟨49, _⟩ => ⟨S8192x1, .f32⟩
  | .hbm, ⟨50, _⟩ => ⟨S8192x8192, .f32⟩
  | .hbm, ⟨51, _⟩ => ⟨S8192x8192, .f32⟩
  | .hbm, ⟨52, _⟩ => ⟨S8192x8192, .f32⟩
  | .hbm, ⟨53, _⟩ => ⟨S_, .f32⟩
  | .hbm, ⟨54, _⟩ => ⟨S8192, .f32⟩
  | .hbm, ⟨55, _⟩ => ⟨S_, .f32⟩
  | .hbm, ⟨56, _⟩ => ⟨S8192, .f32⟩
  | .hbm, ⟨57, _⟩ => ⟨S8192, .f32⟩
  | .hbm, ⟨58, _⟩ => ⟨S_, .f32⟩
  | .hbm, ⟨59, _⟩ => ⟨S8192, .f32⟩
  | .hbm, ⟨60, _⟩ => ⟨S8192, .f32⟩
  | .hbm, ⟨61, _⟩ => ⟨S2x4096, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | _, _ => ⟨S4096x2x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst_0 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_1 : Ref sig .tc := ⟨.hbm, 25, rfl⟩
abbrev main_v21 : Ref sig .tc := ⟨.hbm, 26, rfl⟩
abbrev main_v22 : Ref sig .tc := ⟨.hbm, 27, rfl⟩
abbrev main_cst_2 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_c : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_cst_3 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_cst_4 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_cst_5 : Ref sig .tc := ⟨.hbm, 53, rfl⟩
abbrev main_v44 : Ref sig .tc := ⟨.hbm, 54, rfl⟩
abbrev main_cst_6 : Ref sig .tc := ⟨.hbm, 55, rfl⟩
abbrev main_v45 : Ref sig .tc := ⟨.hbm, 56, rfl⟩
abbrev main_v46 : Ref sig .tc := ⟨.hbm, 57, rfl⟩
abbrev main_cst_7 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_8 : Ref sig .tc := ⟨.hbm, 62, rfl⟩
abbrev main_v50 : Ref sig .tc := ⟨.hbm, 63, rfl⟩
abbrev main_cst_9 : Ref sig .tc := ⟨.hbm, 64, rfl⟩
abbrev main_v51 : Ref sig .tc := ⟨.hbm, 65, rfl⟩

abbrev nD : Nat := 1
abbrev τ : Topo := Topo.v7x

variable {F : FTy → Type} [FloatOps F]

class Facts₀ : Prop where
  transposes_S4096x2x256_S2x4096x256_1_0_2 : S4096x2x256.Transposes [1, 0, 2] S2x4096x256
  shapeCasts_S2x4096x256_S8192x256 : S2x4096x256.ShapeCasts S8192x256
  shapeCasts_S4096_S1x4096 : S4096.ShapeCasts S1x4096
  bcast_S1x4096_S2x4096_0_1 : S1x4096.BroadcastsInDim S2x4096 (![0, 1] : Fin 2 → Fin S2x4096.rank)
  shapeCasts_S2x4096_S8192 : S2x4096.ShapeCasts S8192
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  reducesTo_S8192x256_S8192_d1 : S8192x256.ReducesTo [1] S8192
  h_S_ : 0 < S_.numel
  transposes_S8192x256_S256x8192_1_0 : S8192x256.Transposes [1, 0] S256x8192
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  shapeCasts_S8192_S2x4096 : S8192.ShapeCasts S2x4096
  reducesTo_S2x4096_S_d0_1 : S2x4096.ReducesTo [0, 1] S_
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.Spec.lean ====
/-
  The supervised contrastive loss of both programs, written once as functions of the two argument arrays
  (features [4096, 2, 256], labels [4096]) over plain row, column and feature coordinates.

  Rows are the 8192 anchors in view-major order: row r is sample r mod 4096 seen in view r / 4096.
  For anchors r, c:  gram r c = <x_r, x_c>,  sqNorm r = <x_r, x_r>,  same r c = [label r = label c],
  offDiag r c = [r ≠ c], and the adversarial logit is (gram r c - eps * same r c * sqNorm r) / temperature.

  The reference takes, per row, the maximum M of the logits, the masked exponential sum
  L = sum_c exp(logit - M) * offDiag, and averages (logit - M) - log L over the positives
  (pos = same * offDiag).  The kernel walks the 8192 columns in 8 blocks of 1024, carrying a running
  maximum, a running rescaled exponential sum, and two running plain sums (positives' logits, positives' count),
  and finishes with (S1 / S0 - M) - log L.  Both end with the mean over the rows, times -1.

  Float words are kept as words; the few whose values matter are evaluated at the end of the file.
-/
import Idealize.ShloMosaic.PureOps.Ideal
import Idealize.ShloMosaic.PureOps.Ideal.Laws
import Idealize.ShloMosaic.Lib.ValueIdx

noncomputable section

open scoped BigOperators

namespace Cert.SupCon

open Idealize.ShloMosaic Idealize.ShloMosaic.ValueIdx

abbrev SFeat : Shape := ⟨3, ![4096, 2, 256]⟩
abbrev SLab : Shape := ⟨1, ![4096]⟩

variable (feat : SFeat.Idx → EReal) (lab : SLab.Idx → BitVec 32)

/-- The sample an anchor row shows. -/
def sampleOf (r : Fin 8192) : Fin 4096 := ⟨r.val % 4096, Nat.mod_lt _ (by norm_num)⟩
/-- The view an anchor row shows it in. -/
def viewOf (r : Fin 8192) : Fin 2 := ⟨r.val / 4096, by have := r.isLt; omega⟩

/-- Anchor r's feature k. -/
def contrast (r : Fin 8192) (k : Fin 256) : EReal := feat (ix3 (sampleOf r) (viewOf r) k)
/-- Anchor r's label. -/
def labelOf (r : Fin 8192) : BitVec 32 := lab (ix1 (sampleOf r))

/-- The squared norm of anchor r. -/
def sqNorm (r : Fin 8192) : EReal := ∑ k : Fin 256, contrast feat r k * contrast feat r k
/-- The inner product of anchors r and c. -/
def gram (r c : Fin 8192) : EReal := ∑ k : Fin 256, contrast feat r k * contrast feat c k
/-- 1 where the two anchors carry the same label, else 0. -/
def same (r c : Fin 8192) : EReal := if labelOf lab r = labelOf lab c then 1 else 0
/-- 0 on the diagonal, else 1. -/
def offDiag (r c : Fin 8192) : EReal := if r = c then 0 else 1
/-- The adversarial logit (gram - eps * same * sqNorm) / temperature. -/
def logit (r c : Fin 8192) : EReal :=
  Ideal.div (gram feat r c - Ideal.ofBits .f32 0x3DCCCCCD#32 * same lab r c * sqNorm feat r) (Ideal.ofBits .f32 0x3D8F5C29#32)
/-- The positives of row r: same label, off the diagonal. -/
def pos (r c : Fin 8192) : EReal := same lab r c * offDiag r c

/-! ## The reference: whole rows -/

/-- The row's maximum logit, folded from -inf. -/
def rowMax (r : Fin 8192) : EReal :=
  (Finset.univ : Finset (Fin 8192)).fold max (Ideal.ofBits .f32 0xFF800000#32) (fun c => logit feat lab r c)
/-- The row's exponential sum off the diagonal, shifted by the maximum. -/
def expSum (r : Fin 8192) : EReal := ∑ c : Fin 8192, Ideal.exp (logit feat lab r c - rowMax feat lab r) * offDiag r c
/-- The reference's loss of row r. -/
def refLoss (r : Fin 8192) : EReal :=
  Ideal.ofBits .f32 0xBF800000#32 *
    Ideal.div (∑ c : Fin 8192, pos lab r c * ((logit feat lab r c - rowMax feat lab r) - Ideal.log (expSum feat lab r)))
      (∑ c : Fin 8192, pos lab r c)
/-- The reference's result: the mean of the rows' losses. -/
def refResult : EReal := Ideal.div (∑ r : Fin 8192, refLoss feat lab r) (Ideal.ofBits .f32 0x46000000#32)

/-! ## The kernel: eight column blocks of 1024, one after the other -/

/-- Column q of block n (blocks counted modulo 8, so that the function is total). -/
def colOf (n : ℕ) (q : Fin 1024) : Fin 8192 :=
  ⟨n % 8 * 1024 + q.val, by have := q.isLt; have := Nat.mod_lt n (show 0 < 8 by norm_num); omega⟩
/-- The maximum of row r's logits over block n, folded from -inf. -/
def blockMax (r : Fin 8192) (n : ℕ) : EReal :=
  (Finset.univ : Finset (Fin 1024)).fold max (Ideal.ofBits .f32 0xFF800000#32) (fun q => logit feat lab r (colOf n q))
/-- The running maximum after n blocks. -/
def onMax (r : Fin 8192) : ℕ → EReal
  | 0 => Ideal.ofBits .f32 0xFF800000#32
  | n + 1 => max (onMax r n) (blockMax feat lab r n)
/-- The running exponential sum after n blocks, kept relative to the running maximum: the old sum is rescaled by
    exp (old maximum - new maximum) before the block's terms are added. -/
def onSum (r : Fin 8192) : ℕ → EReal
  | 0 => Ideal.ofBits .f32 0x00000000#32
  | n + 1 => onSum r n * Ideal.exp (onMax feat lab r n - onMax feat lab r (n + 1))
      + ∑ q : Fin 1024, Ideal.exp (logit feat lab r (colOf n q) - onMax feat lab r (n + 1)) * offDiag r (colOf n q)
/-- The running sum of the positives' logits after n blocks. -/
def onPosLogit (r : Fin 8192) : ℕ → EReal
  | 0 => Ideal.ofBits .f32 0x00000000#32
  | n + 1 => onPosLogit r n + ∑ q : Fin 1024, pos lab r (colOf n q) * logit feat lab r (colOf n q)
/-- The running count of the positives after n blocks. -/
def onPosCount (r : Fin 8192) : ℕ → EReal
  | 0 => Ideal.ofBits .f32 0x00000000#32
  | n + 1 => onPosCount r n + ∑ q : Fin 1024, pos lab r (colOf n q)
/-- The kernel's loss of row r, from the four running values after all eight blocks. -/
def kernLoss (r : Fin 8192) : EReal :=
  Ideal.ofBits .f32 0xBF800000#32 *
    ((Ideal.div (onPosLogit feat lab r 8) (onPosCount lab r 8) - onMax feat lab r 8) - Ideal.log (onSum feat lab r 8))
/-- The kernel's result: the mean of the rows' losses. -/
def kernResult : EReal := Ideal.div (∑ r : Fin 8192, kernLoss feat lab r) (Ideal.ofBits .f32 0x46000000#32)

/-! ## The words whose values matter -/

theorem word_neg_inf : Ideal.ofBits .f32 0xFF800000#32 = ⊥ := by simp [Ideal.ofBits, Ideal.ieee]
theorem word_one : Ideal.ofBits .f32 0x3F800000#32 = 1 := by
  simp [Ideal.ofBits, Ideal.ieee]
  first
    | (rw [← EReal.coe_mul]; norm_num)
    | (norm_cast; norm_num)
theorem word_neg_one : Ideal.ofBits .f32 0xBF800000#32 = -1 := by
  simp [Ideal.ofBits, Ideal.ieee]
  first
    | done
    | (rw [← EReal.coe_mul]; norm_num)
    | (norm_cast; norm_num)
theorem word_count : Ideal.ofBits .f32 0x46000000#32 = ((8192 : ℝ) : EReal) := by
  simp [Ideal.ofBits, Ideal.ieee]
  first
    | done
    | (rw [← EReal.coe_mul]; norm_num)
    | (norm_cast; norm_num)

end Cert.SupCon

end
-- ==== Proof.RefValueA.lean ====
/-
  The plain facts the reading of the reference leans on, none of them about the program itself:
  a one-bit equality test turned into a float is 1 or 0; two row numbers below 8192, written as 32-bit words,
  agree exactly when the numbers do; a maximum-reduce of an [8192, 8192] array over its columns, read at a row,
  is the fold of max over that row; and a sum over 2 views of 4096 samples is the sum over the 8192 anchors
  (anchor = view * 4096 + sample).
-/
import Idealize.ShloMosaic.PureOps.Ideal
import Idealize.ShloMosaic.PureOps.Ideal.Laws
import Idealize.ShloMosaic.PureOps.Reduce
import Idealize.ShloMosaic.Lib.ValueIdx

noncomputable section

open scoped BigOperators

namespace Cert.SupCon.Ref

open Idealize.ShloMosaic Idealize.ShloMosaic.ValueIdx

/-! ## One-bit tests as floats -/

/-- An equality test of two words, converted to a float, is 1 where they agree and 0 where they differ. -/
theorem uitofp_cmpi_eq {w : Nat} (a b : BitVec w) :
    FloatOps.uitofp (F := Ideal) .f32 (IntOp.cmpi .eq a b) = if a = b then (1 : EReal) else 0 := by
  show ((((IntOp.cmpi .eq a b).toNat : ℕ) : ℝ) : EReal) = _
  by_cases h : a = b
  · have hb : (a == b) = true := beq_iff_eq.mpr h
    have e : IntOp.cmpi .eq a b = 1#1 := by
      show BitVec.ofBool (a == b) = 1#1
      rw [hb]; rfl
    rw [e, if_pos h]; simp
  · have hb : (a == b) = false := beq_eq_false_iff_ne.mpr h
    have e : IntOp.cmpi .eq a b = 0#1 := by
      show BitVec.ofBool (a == b) = 0#1
      rw [hb]; rfl
    rw [e, if_neg h]; simp

/-- Two anchors' numbers, as 32-bit words (the first with the zero word added), agree exactly when the anchors do. -/
theorem iota_word_eq (r c : Fin 8192) :
    IntOp.addi (BitVec.ofNat 32 r.val) 0#32 = BitVec.ofNat 32 c.val ↔ r = c := by
  unfold IntOp.addi
  rw [BitVec.add_zero]
  constructor
  · intro h
    have h2 := congrArg BitVec.toNat h
    simp only [BitVec.toNat_ofNat] at h2
    have hr := r.isLt
    have hc := c.isLt
    apply Fin.ext
    omega
  · rintro rfl; rfl

/-- The word a sum starts from is the real 0. -/
theorem zero_word : FloatOps.ofBits (F := Ideal) .f32 0x00000000#32 = (0 : EReal) := Ideal.ofBits_zero_f32

/-- 1 minus the indicator of a condition is the indicator of its negation. -/
theorem one_sub_ite (p : Prop) [Decidable p] :
    (1 : EReal) - (if p then (1 : EReal) else 0) = if p then 0 else 1 := by
  by_cases h : p
  · rw [if_pos h, if_pos h]
    show ((1 : ℝ) : EReal) - ((1 : ℝ) : EReal) = 0
    rw [← EReal.coe_sub]; simp
  · rw [if_neg h, if_neg h]; simp

/-! ## The row maximum -/

/-- Row r with column k put back is (r, k). -/
theorem lift_row (h : (⟨2, ![8192, 8192]⟩ : Shape).Reduces [1] (⟨1, ![8192]⟩ : Shape)) (r : Fin 8192)
    (k : Fin ((⟨2, ![8192, 8192]⟩ : Shape).size 1)) :
    h.lift (ix1 r) k = ix2 r (⟨k.val, k.isLt⟩ : Fin 8192) := by
  funext c; apply Fin.ext
  fin_cases c <;> rfl

/-- A maximum-reduce over the columns, read at row r, is the fold of max over that row from the initial value. -/
theorem hostReduce_max_row (x : (⟨2, ![8192, 8192]⟩ : Shape).Idx → Ideal .f32) (init : (⟨0, ![]⟩ : Shape).Idx → Ideal .f32)
    (h' : (⟨2, ![8192, 8192]⟩ : Shape).ReducesTo [1] (⟨1, ![8192]⟩ : Shape)) (hu : 0 < (⟨0, ![]⟩ : Shape).numel) (r : Fin 8192) :
    Host.reduce (FloatOps.maximumf (F := Ideal) (φ := .f32)) x init h' hu (ix1 r)
      = (Finset.univ : Finset (Fin 8192)).fold max (init (Shape.Idx.first hu)) (fun c => x (ix2 r c)) := by
  have h : (⟨2, ![8192, 8192]⟩ : Shape).Reduces [1] (⟨1, ![8192]⟩ : Shape) := by decide
  rw [Host.reduce_eq_fold_single (FloatOps.maximumf (F := Ideal) (φ := .f32)) x init h' h hu]
  have hf : (x ∘ h.lift (ix1 r)) = fun c : Fin 8192 => x (ix2 r c) :=
    funext fun k => congrArg x (lift_row h r k)
  exact congrArg (fun f => Finset.fold max (init (Shape.Idx.first hu)) f (Finset.univ : Finset (Fin 8192))) hf

/-! ## Two views of 4096 samples are 8192 anchors -/

/-- Anchor number = view * 4096 + sample. -/
def rowEquiv : Fin 2 × Fin 4096 ≃ Fin 8192 where
  toFun p := ⟨p.1.val * 4096 + p.2.val, by have := p.1.isLt; have := p.2.isLt; omega⟩
  invFun r := (⟨r.val / 4096, by have := r.isLt; omega⟩, ⟨r.val % 4096, Nat.mod_lt _ (by norm_num)⟩)
  left_inv p := by
    rcases p with ⟨a, b⟩
    have ha := a.isLt
    have hb := b.isLt
    refine Prod.ext (Fin.ext ?_) (Fin.ext ?_)
    · show (a.val * 4096 + b.val) / 4096 = a.val; omega
    · show (a.val * 4096 + b.val) % 4096 = b.val; omega
  right_inv r := Fin.ext (by show r.val / 4096 * 4096 + r.val % 4096 = r.val; omega)

/-- The double sum over views and samples is the sum over anchors. -/
theorem sum_rows {M : Type*} [AddCommMonoid M] (g : Fin 8192 → M) :
    ∑ a : Fin 2, ∑ b : Fin 4096, g (rowEquiv (a, b)) = ∑ r : Fin 8192, g r :=
  (Fintype.sum_prod_type (f := fun p : Fin 2 × Fin 4096 => g (rowEquiv p))).symm.trans (Equiv.sum_comp rowEquiv g)

end Cert.SupCon.Ref

end
-- ==== Proof.RefValueB.lean ====
/-
  The reference program read stage by stage at explicit anchors r, c and feature k, up to the row maximum:
  the reshaped transpose of the features is the anchors' features; the tiled labels are the anchors' labels;
  the converted label comparison is the same-label indicator; the row sums of squares are the squared norms;
  the matrix product is the Gram matrix; the scaled difference is the logit; the maximum-reduce is the row maximum.
  Every step is an unfolding or a re-indexing; the only word evaluated is the zero a sum starts from.
-/
import proofs.«155762_j61460982005779_1_alg».proof.Proof.Gen.ReferenceIdeal.Read
import proofs.«155762_j61460982005779_1_alg».proof.Proof.Spec
import proofs.«155762_j61460982005779_1_alg».proof.Proof.RefValueA

noncomputable section

open scoped BigOperators

namespace Cert.SupCon.Ref

open Idealize.ShloMosaic Idealize.ShloMosaic.ValueIdx Cert.ReferenceIdeal

/-- The features array. -/
abbrev Feat : Type := (⟨S4096x2x256, .f32⟩ : BufTy).Contents (Elt Ideal)
/-- The labels array. -/
abbrev Lab : Type := (⟨S4096, .i32⟩ : BufTy).Contents (Elt Ideal)

/-- The reshaped transpose at (r, k) is anchor r's feature k: row r = view r / 4096 of sample r mod 4096. -/
theorem v1_at (x0 : Feat) (r : Fin 8192) (k : Fin 256) :
    Read.val_main_v1 (F := Ideal) x0 (ix2 r k) = contrast x0 r k := by
  rw [Read.val_main_v1_apply, Read.val_main_v0_apply]
  unfold contrast
  refine congrArg x0 (funext fun a => Fin.ext ?_)
  have hr := r.isLt
  have hk := k.isLt
  match a with
  | ⟨0, _⟩ => show (r.val * 256 + k.val) / 256 % 4096 = r.val % 4096; omega
  | ⟨1, _⟩ => show (r.val * 256 + k.val) / 1048576 = r.val / 4096; omega
  | ⟨2, _⟩ => show (r.val * 256 + k.val) % 256 = k.val; omega

/-- The tiled labels at r are anchor r's label. -/
theorem v4_at (x1 : Lab) (r : Fin 8192) : Read.val_main_v4 (F := Ideal) x1 (ix1 r) = labelOf x1 r := by
  rw [Read.val_main_v4_apply, Read.val_main_v3_apply, Read.val_main_v2_apply]
  unfold labelOf
  refine congrArg x1 (funext fun a => Fin.ext ?_)
  match a with
  | ⟨0, _⟩ => show 0 * 4096 + r.val % 4096 = r.val % 4096; omega

/-- The converted label comparison at (r, c) is the same-label indicator. -/
theorem v10_at (x1 : Lab) (r c : Fin 8192) : Read.val_main_v10 (F := Ideal) x1 (ix2 r c) = same x1 r c := by
  have e5 : Read.idx_main_v5 (Read.idx_main_v7 (ix2 r c)) = ix1 r :=
    funext fun a => Fin.ext (by match a with | ⟨0, _⟩ => rfl)
  have e6 : Read.idx_main_v6 (Read.idx_main_v8 (ix2 r c)) = ix1 c :=
    funext fun a => Fin.ext (by match a with | ⟨0, _⟩ => rfl)
  rw [Read.val_main_v10_apply, Read.val_main_v9_apply, Read.val_main_v7_apply, Read.val_main_v8_apply,
    Read.val_main_v5_apply, Read.val_main_v6_apply, e5, e6, v4_at, v4_at, uitofp_cmpi_eq]
  rfl

/-- The row sum of squares at r is anchor r's squared norm. -/
theorem v12_at (x0 : Feat) (r : Fin 8192) : Read.val_main_v12 (F := Ideal) x0 (ix1 r) = sqNorm x0 r := by
  rw [Read.val_main_v12_apply, Read.val_main_cst_apply, Ideal.ofBits_def, Ideal.ofBits_zero_f32, zero_add]
  unfold sqNorm
  refine Finset.sum_congr rfl fun k _ => ?_
  have e : Read.idx_main_v12 (ix1 r) k = ix2 r k :=
    funext fun a => Fin.ext (by match a with | ⟨0, _⟩ => rfl | ⟨1, _⟩ => rfl)
  rw [Read.val_main_v11_apply, e, v1_at, Ideal.mulf_def]

/-- The squared norms broadcast along the columns. -/
theorem v18_at (x0 : Feat) (r c : Fin 8192) : Read.val_main_v18 (F := Ideal) x0 (ix2 r c) = sqNorm x0 r := by
  have e : Read.idx_main_v13 (Read.idx_main_v18 (ix2 r c)) = ix1 r :=
    funext fun a => Fin.ext (by match a with | ⟨0, _⟩ => rfl)
  rw [Read.val_main_v18_apply, Read.val_main_v13_apply, e, v12_at]

/-- The matrix product at (r, c) is the inner product of anchors r and c. -/
theorem v15_at (x0 : Feat) (r c : Fin 8192) : Read.val_main_v15 (F := Ideal) x0 (ix2 r c) = gram x0 r c := by
  rw [Read.val_main_v15_apply]
  unfold gram
  refine Finset.sum_congr rfl fun k _ => ?_
  have el : Read.lidx_main_v15 (ix2 r c) k = ix2 r k :=
    funext fun a => Fin.ext (by match a with | ⟨0, _⟩ => rfl | ⟨1, _⟩ => rfl)
  have er : Read.idx_main_v14 (Read.ridx_main_v15 (ix2 r c) k) = ix2 c k :=
    funext fun a => Fin.ext (by match a with | ⟨0, _⟩ => rfl | ⟨1, _⟩ => rfl)
  rw [Read.val_main_v14_apply, el, er, v1_at, v1_at]

/-- The scaled difference at (r, c) is the logit. -/
theorem v22_at (x0 : Feat) (x1 : Lab) (r c : Fin 8192) :
    Read.val_main_v22 (F := Ideal) x0 x1 (ix2 r c) = logit x0 x1 r c := by
  rw [Read.val_main_v22_apply, Read.val_main_v20_apply, Read.val_main_v19_apply, Read.val_main_v17_apply,
    Read.val_main_v16_apply, Read.val_main_cst_0_apply, Read.val_main_v21_apply, Read.val_main_cst_1_apply,
    v15_at, v10_at, v18_at]
  rfl

/-- The maximum-reduce at r is the row's maximum logit. -/
theorem v23_at (x0 : Feat) (x1 : Lab) (r : Fin 8192) :
    Read.val_main_v23 (F := Ideal) x0 x1 (ix1 r) = rowMax x0 x1 r := by
  unfold Read.val_main_v23
  refine (hostReduce_max_row (Read.val_main_v22 (F := Ideal) x0 x1) (Read.val_main_cst_2 (F := Ideal)) _ _ r).trans ?_
  unfold rowMax
  rw [Read.val_main_cst_2_apply, Ideal.ofBits_def]
  exact congrArg (fun f => Finset.fold max (Ideal.ofBits .f32 0xFF800000#32) f (Finset.univ : Finset (Fin 8192)))
    (funext fun c => v22_at x0 x1 r c)

end Cert.SupCon.Ref

end
-- ==== Proof.RefValueC.lean ====
/-
  The reference program read on, from the shifted logits to each row's loss:
  the logit minus its row's maximum; 1 minus the converted comparison of the two iotas is the off-diagonal
  indicator; its product with the same-label indicator marks the positives; the row sum of the masked exponentials;
  the log-probability; and the quotient of the two row sums over the positives, times the word -1.
  The words evaluated are the zero each sum starts from and the 1 the indicator is subtracted from.
-/
import proofs.«155762_j61460982005779_1_alg».proof.Proof.Gen.ReferenceIdeal.Read
import proofs.«155762_j61460982005779_1_alg».proof.Proof.Spec
import proofs.«155762_j61460982005779_1_alg».proof.Proof.RefValueB

noncomputable section

open scoped BigOperators

namespace Cert.SupCon.Ref

open Idealize.ShloMosaic Idealize.ShloMosaic.ValueIdx Cert.ReferenceIdeal

/-- The row maxima broadcast along the columns. -/
theorem v25_at (x0 : Feat) (x1 : Lab) (r c : Fin 8192) :
    Read.val_main_v25 (F := Ideal) x0 x1 (ix2 r c) = rowMax x0 x1 r := by
  have e : Read.idx_main_v24 (Read.idx_main_v25 (ix2 r c)) = ix1 r :=
    funext fun a => Fin.ext (by match a with | ⟨0, _⟩ => rfl)
  rw [Read.val_main_v25_apply, Read.val_main_v24_apply, e, v23_at]

/-- The shifted logit. -/
theorem v26_at (x0 : Feat) (x1 : Lab) (r c : Fin 8192) :
    Read.val_main_v26 (F := Ideal) x0 x1 (ix2 r c) = logit x0 x1 r c - rowMax x0 x1 r := by
  rw [Read.val_main_v26_apply, v22_at, v25_at]
  rfl

/-- 1 minus the converted comparison of the row and column numbers is the off-diagonal indicator. -/
theorem v34_at (r c : Fin 8192) : Read.val_main_v34 (F := Ideal) (ix2 r c) = offDiag r c := by
  rw [Read.val_main_v34_apply, Read.val_main_v33_apply, Read.val_main_cst_3_apply, Read.val_main_v32_apply,
    Read.val_main_v31_apply, Read.val_main_v30_apply, Read.val_main_v27_apply, Read.val_main_v29_apply,
    Read.val_main_c_apply, Read.val_main_v28_apply, uitofp_cmpi_eq, Ideal.ofBits_def, word_one, Ideal.subf_def]
  show (1 : EReal) - (if IntOp.addi (BitVec.ofNat 32 r.val) 0#32 = BitVec.ofNat 32 c.val then (1 : EReal) else 0) = offDiag r c
  rw [one_sub_ite]
  unfold offDiag
  by_cases h : r = c
  · rw [if_pos h, if_pos ((iota_word_eq r c).mpr h)]
  · rw [if_neg h, if_neg (fun h' => h ((iota_word_eq r c).mp h'))]

/-- The positives: same label, off the diagonal. -/
theorem v35_at (x1 : Lab) (r c : Fin 8192) : Read.val_main_v35 (F := Ideal) x1 (ix2 r c) = pos x1 r c := by
  rw [Read.val_main_v35_apply, v10_at, v34_at]
  rfl

/-- The masked exponential of the shifted logit. -/
theorem v37_at (x0 : Feat) (x1 : Lab) (r c : Fin 8192) :
    Read.val_main_v37 (F := Ideal) x0 x1 (ix2 r c)
      = Ideal.exp (logit x0 x1 r c - rowMax x0 x1 r) * offDiag r c := by
  rw [Read.val_main_v37_apply, Read.val_main_v36_apply, v26_at, v34_at]
  rfl

/-- The row's masked exponential sum. -/
theorem v38_at (x0 : Feat) (x1 : Lab) (r : Fin 8192) :
    Read.val_main_v38 (F := Ideal) x0 x1 (ix1 r) = expSum x0 x1 r := by
  rw [Read.val_main_v38_apply, Read.val_main_cst_4_apply, Ideal.ofBits_def, Ideal.ofBits_zero_f32, zero_add]
  unfold expSum
  refine Finset.sum_congr rfl fun c _ => ?_
  have e : Read.idx_main_v38 (ix1 r) c = ix2 r c :=
    funext fun a => Fin.ext (by match a with | ⟨0, _⟩ => rfl | ⟨1, _⟩ => rfl)
  rw [e, v37_at]

/-- The logarithm of the row's sum, broadcast along the columns. -/
theorem v41_at (x0 : Feat) (x1 : Lab) (r c : Fin 8192) :
    Read.val_main_v41 (F := Ideal) x0 x1 (ix2 r c) = Ideal.log (expSum x0 x1 r) := by
  have e : Read.idx_main_v39 (Read.idx_main_v41 (ix2 r c)) = ix1 r :=
    funext fun a => Fin.ext (by match a with | ⟨0, _⟩ => rfl)
  rw [Read.val_main_v41_apply, Read.val_main_v40_apply, Read.val_main_v39_apply, e, v38_at]
  rfl

/-- A positive's term: the indicator times the log-probability. -/
theorem v43_at (x0 : Feat) (x1 : Lab) (r c : Fin 8192) :
    Read.val_main_v43 (F := Ideal) x0 x1 (ix2 r c)
      = pos x1 r c * ((logit x0 x1 r c - rowMax x0 x1 r) - Ideal.log (expSum x0 x1 r)) := by
  rw [Read.val_main_v43_apply, Read.val_main_v42_apply, v35_at, v26_at, v41_at]
  rfl

/-- The row sum of the positives' log-probabilities. -/
theorem v44_at (x0 : Feat) (x1 : Lab) (r : Fin 8192) :
    Read.val_main_v44 (F := Ideal) x0 x1 (ix1 r)
      = ∑ c : Fin 8192, pos x1 r c * ((logit x0 x1 r c - rowMax x0 x1 r) - Ideal.log (expSum x0 x1 r)) := by
  rw [Read.val_main_v44_apply, Read.val_main_cst_5_apply, Ideal.ofBits_def, Ideal.ofBits_zero_f32, zero_add]
  refine Finset.sum_congr rfl fun c _ => ?_
  have e : Read.idx_main_v44 (ix1 r) c = ix2 r c :=
    funext fun a => Fin.ext (by match a with | ⟨0, _⟩ => rfl | ⟨1, _⟩ => rfl)
  rw [e, v43_at]

/-- The row's count of positives. -/
theorem v45_at (x1 : Lab) (r : Fin 8192) :
    Read.val_main_v45 (F := Ideal) x1 (ix1 r) = ∑ c : Fin 8192, pos x1 r c := by
  rw [Read.val_main_v45_apply, Read.val_main_cst_6_apply, Ideal.ofBits_def, Ideal.ofBits_zero_f32, zero_add]
  refine Finset.sum_congr rfl fun c _ => ?_
  have e : Read.idx_main_v45 (ix1 r) c = ix2 r c :=
    funext fun a => Fin.ext (by match a with | ⟨0, _⟩ => rfl | ⟨1, _⟩ => rfl)
  rw [e, v35_at]

/-- The row's loss. -/
theorem v48_at (x0 : Feat) (x1 : Lab) (r : Fin 8192) :
    Read.val_main_v48 (F := Ideal) x0 x1 (ix1 r) = refLoss x0 x1 r := by
  rw [Read.val_main_v48_apply, Read.val_main_v47_apply, Read.val_main_cst_7_apply, Read.val_main_v46_apply,
    v44_at, v45_at]
  rfl

end Cert.SupCon.Ref

end
-- ==== Proof.RefValue.lean ====
/-
  The reference's result is the specification's: the rows' losses, laid out as 2 views of 4096 samples, summed
  (anchor = view * 4096 + sample, so the sum is over the 8192 anchors) and divided by the word 8192.
-/
import proofs.«155762_j61460982005779_1_alg».proof.Proof.Gen.ReferenceIdeal.Read
import proofs.«155762_j61460982005779_1_alg».proof.Proof.Spec
import proofs.«155762_j61460982005779_1_alg».proof.Proof.RefValueC

noncomputable section

open scoped BigOperators

namespace Cert.SupCon.Ref

open Idealize.ShloMosaic Idealize.ShloMosaic.ValueIdx Cert.ReferenceIdeal

/-- The losses laid out by view and sample. -/
theorem v49_at (x0 : Feat) (x1 : Lab) (a : Fin 2) (b : Fin 4096) :
    Read.val_main_v49 (F := Ideal) x0 x1 (ix2 a b) = refLoss x0 x1 (rowEquiv (a, b)) := by
  have e : Read.idx_main_v49 (ix2 a b) = ix1 (rowEquiv (a, b)) :=
    funext fun d => Fin.ext (by match d with | ⟨0, _⟩ => rfl)
  rw [Read.val_main_v49_apply, e, v48_at]

/-- The sum over views and samples is the sum of the rows' losses. -/
theorem v49_sum (x0 : Feat) (x1 : Lab) :
    ∑ j : S2x4096.Idx, Read.val_main_v49 (F := Ideal) x0 x1 j = ∑ r : Fin 8192, refLoss x0 x1 r := by
  refine (sum_idx2 (Read.val_main_v49 (F := Ideal) x0 x1)).trans ?_
  refine Eq.trans ?_ (sum_rows (fun r => refLoss x0 x1 r))
  exact Finset.sum_congr rfl fun a _ => Finset.sum_congr rfl fun b _ => v49_at x0 x1 a b

/-- The reference program's result, as a function of the two argument arrays, is the specification's result. -/
theorem ref_result (x0 : (⟨Cert.ReferenceIdeal.S4096x2x256, .f32⟩ : BufTy).Contents (Elt Ideal))
    (x1 : (⟨Cert.ReferenceIdeal.S4096, .i32⟩ : BufTy).Contents (Elt Ideal)) :
    Cert.ReferenceIdeal.Read.val_main_v51 (F := Ideal) x0 x1 = fun _ => Cert.SupCon.refResult x0 x1 := by
  funext i
  rw [Read.val_main_v51_apply, Read.val_main_v50_apply, Read.val_main_cst_8_apply, Read.val_main_cst_9_apply,
    zero_word, zero_add, v49_sum]
  rfl

end Cert.SupCon.Ref

end
-- ==== Proof.Finite.lean ====
/-
  The precondition, read back: the printed predicate takes the absolute value of every feature, compares it
  with the word +inf, and reduces the comparisons by "and" from 1. If the result is 1, every comparison was 1, so every
  feature's absolute value max x (-x) is below +inf, and such an extended real is neither -inf nor +inf.
-/
import proofs.«155762_j61460982005779_1_alg».proof.Defs
import proofs.«155762_j61460982005779_1_alg».proof.Proof.Gen.Pre_finite_inputs
import proofs.«155762_j61460982005779_1_alg».proof.Proof.Spec
import Idealize.ShloMosaic.Lib.ReduceAll
import Idealize.ShloMosaic.Lib.ValueIdx

noncomputable section

namespace Cert.SupCon

open Idealize.ShloMosaic Idealize.SL.Sem

/-- The word 0x7F800000 is +inf. -/
theorem word_pos_inf : Ideal.ofBits .f32 0x7F800000#32 = ⊤ := by simp [Ideal.ofBits, Ideal.ieee]

/-- An ordered less-than that came out 1 is the order's less-than. -/
theorem lt_of_cmp_olt {x y : EReal} (h : Ideal.cmp .olt x y = 1#1) : x < y := by
  by_contra hn
  have e : Ideal.cmp .olt x y = 0#1 := by
    show BitVec.ofBool (decide (x < y)) = 0#1
    rw [decide_eq_false hn]; rfl
  rw [e] at h
  exact absurd h (by decide)

/-- An extended real whose absolute value is below +inf is neither infinity. -/
theorem ne_bot_top_of_abs_lt_top (x : EReal) (h : max x (-x) < ⊤) : x ≠ ⊥ ∧ x ≠ ⊤ := by
  constructor
  · rintro rfl
    rw [EReal.neg_bot, max_eq_right bot_le] at h
    exact lt_irrefl _ h
  · rintro rfl
    rw [max_eq_left le_top] at h
    exact lt_irrefl _ h

/-- The predicate all ones: every feature is neither -inf nor +inf. -/
theorem finite_of_fn (a0 : FVec Ideal Cert.Pre_finite_inputs.S4096x2x256 .f32) (a1 : IVec Cert.Pre_finite_inputs.S4096 32)
    (h : Cert.Pre_finite_inputs.fn (F := Ideal) a0 a1 = fun _ => 1#1)
    (i : Cert.Pre_finite_inputs.S4096x2x256.Idx) : a0 i ≠ ⊥ ∧ a0 i ≠ ⊤ := by
  have h0 := congrFun h ValueIdx.ix0
  dsimp only [Cert.Pre_finite_inputs.fn] at h0
  haveI : Subsingleton Cert.Pre_finite_inputs.S_.Idx := ⟨fun a b => funext fun d => d.elim0⟩
  have hi := Host.reduce_andi_all _ _ _ _ _ h0 i
  have hc : Ideal.cmp .olt (max (a0 i) (-(a0 i))) (Ideal.ofBits .f32 0x7F800000#32) = 1#1 := hi
  have hlt := lt_of_cmp_olt hc
  rw [word_pos_inf] at hlt
  exact ne_bot_top_of_abs_lt_top _ hlt

/-- Under the precondition every feature on every device is neither -inf nor +inf. -/
theorem finite_of_pre (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    ∀ i : SFeat.Idx,
      @Ne EReal (m ((c.tc : Thread Cert.KernelIdeal.nD Cert.KernelIdeal.τ).loc Cert.KernelIdeal.main_arg0) i) ⊥
      ∧ @Ne EReal (m ((c.tc : Thread Cert.KernelIdeal.nD Cert.KernelIdeal.τ).loc Cert.KernelIdeal.main_arg0) i) ⊤ :=
  fun i => finite_of_fn _ _ (h c) i

end Cert.SupCon

end
-- ==== Proof.AlgWords.lean ====
/-
  The quantities of the loss as real numbers.

  With finite features every logit is (the coercion of) a real number: the two float words in it,
  0.1 and 0.07, denote reals, the second one not zero; sums, differences and products of reals are reals;
  and a quotient by a nonzero real is a product with its reciprocal.  The three masks
  (same label, off the diagonal, positive) are 0 or 1, so they are reals as well.
-/
import proofs.«155762_j61460982005779_1_alg».proof.Proof.Spec

noncomputable section

open scoped BigOperators

namespace Cert.SupCon

open Idealize.ShloMosaic Idealize.ShloMosaic.ValueIdx

/-- The coercion of a finite sum of reals is the sum of the coercions. -/
theorem coe_sum {ι : Type*} (s : Finset ι) (g : ι → ℝ) :
    ((∑ i ∈ s, g i : ℝ) : EReal) = ∑ i ∈ s, (g i : EReal) := by
  classical
  induction s using Finset.induction_on with
  | empty => simp
  | insert a s ha ih => rw [Finset.sum_insert ha, Finset.sum_insert ha, EReal.coe_add, ih]

/-- The same for a sum of sums. -/
theorem coe_sum₂ {ι κ : Type*} (s : Finset ι) (t : Finset κ) (g : ι → κ → ℝ) :
    ((∑ i ∈ s, ∑ j ∈ t, g i j : ℝ) : EReal) = ∑ i ∈ s, ∑ j ∈ t, (g i j : EReal) := by
  rw [coe_sum]
  exact Finset.sum_congr rfl fun i _ => coe_sum t (g i)

/-- An extended real that is a real number. -/
def IsR (y : EReal) : Prop := ∃ a : ℝ, y = (a : EReal)

theorem IsR.coe (a : ℝ) : IsR (a : EReal) := ⟨a, rfl⟩

theorem IsR.add {y z : EReal} (hy : IsR y) (hz : IsR z) : IsR (y + z) := by
  obtain ⟨a, rfl⟩ := hy
  obtain ⟨b, rfl⟩ := hz
  exact ⟨a + b, (EReal.coe_add a b).symm⟩

theorem IsR.sub {y z : EReal} (hy : IsR y) (hz : IsR z) : IsR (y - z) := by
  obtain ⟨a, rfl⟩ := hy
  obtain ⟨b, rfl⟩ := hz
  exact ⟨a - b, (EReal.coe_sub a b).symm⟩

theorem IsR.mul {y z : EReal} (hy : IsR y) (hz : IsR z) : IsR (y * z) := by
  obtain ⟨a, rfl⟩ := hy
  obtain ⟨b, rfl⟩ := hz
  exact ⟨a * b, (EReal.coe_mul a b).symm⟩

theorem IsR.sum {ι : Type*} (s : Finset ι) (g : ι → EReal) (h : ∀ i ∈ s, IsR (g i)) :
    IsR (∑ i ∈ s, g i) := by
  choose! f hf using h
  exact ⟨∑ i ∈ s, f i, by rw [coe_sum]; exact Finset.sum_congr rfl hf⟩

/-- The word 0.1 (the adversarial epsilon) denotes a real. -/
theorem word_eps : IsR (Ideal.ofBits .f32 0x3DCCCCCD#32) := by
  simp only [IsR]
  simp [Ideal.ofBits, Ideal.ieee]
  exact ⟨_, (EReal.coe_mul _ _).symm⟩

/-- The word 0.07 (the temperature) denotes a real that is not zero. -/
theorem word_temp : ∃ t : ℝ, t ≠ 0 ∧ Ideal.ofBits .f32 0x3D8F5C29#32 = (t : EReal) := by
  simp [Ideal.ofBits, Ideal.ieee]
  exact ⟨9395241 * (2 ^ 27)⁻¹, by norm_num, (EReal.coe_mul _ _).symm⟩

variable (feat : SFeat.Idx → EReal) (lab : SLab.Idx → BitVec 32)

/-- The same-label mask as a real. -/
def sameR (r c : Fin 8192) : ℝ := if labelOf lab r = labelOf lab c then 1 else 0
/-- The off-diagonal mask as a real. -/
def offR (r c : Fin 8192) : ℝ := if r = c then 0 else 1
/-- The positives' mask as a real. -/
def posR (r c : Fin 8192) : ℝ := sameR lab r c * offR r c

theorem same_eq (r c : Fin 8192) : same lab r c = (sameR lab r c : EReal) := by
  unfold same sameR
  split_ifs <;> simp

theorem offDiag_eq (r c : Fin 8192) : offDiag r c = (offR r c : EReal) := by
  unfold offDiag offR
  split_ifs <;> simp

theorem pos_eq (r c : Fin 8192) : pos lab r c = (posR lab r c : EReal) := by
  rw [pos, same_eq, offDiag_eq, ← EReal.coe_mul]
  rfl

theorem sameR_nonneg (r c : Fin 8192) : 0 ≤ sameR lab r c := by
  unfold sameR
  split_ifs <;> norm_num

theorem offR_nonneg (r c : Fin 8192) : 0 ≤ offR r c := by
  unfold offR
  split_ifs <;> norm_num

theorem posR_nonneg (r c : Fin 8192) : 0 ≤ posR lab r c :=
  mul_nonneg (sameR_nonneg lab r c) (offR_nonneg r c)

variable {feat}

/-- With finite features every logit is a real number. -/
theorem logit_isR (hfin : ∀ i, feat i ≠ ⊥ ∧ feat i ≠ ⊤) (r c : Fin 8192) : IsR (logit feat lab r c) := by
  have hf : ∀ i, IsR (feat i) := fun i => ⟨(feat i).toReal, (EReal.coe_toReal (hfin i).2 (hfin i).1).symm⟩
  have hc : ∀ r k, IsR (contrast feat r k) := fun r k => hf _
  obtain ⟨t, ht0, ht⟩ := word_temp
  rw [logit, ht, Ideal.div_coe ht0]
  refine IsR.mul (IsR.sub ?_ (IsR.mul (IsR.mul word_eps ?_) ?_)) (IsR.coe _)
  · exact IsR.sum _ _ fun k _ => IsR.mul (hc r k) (hc c k)
  · rw [same_eq]; exact IsR.coe _
  · exact IsR.sum _ _ fun k _ => IsR.mul (hc r k) (hc r k)

end Cert.SupCon

end
-- ==== Proof.AlgMax.lean ====
/-
  The running maximum.

  A fold of max from -inf is at most M exactly when every folded value is.  The eight blocks of 1024 columns
  are all 8192 columns, so the running maximum after eight blocks is the row's maximum; and after at least
  one block it is a real number, because a maximum of finitely many reals over a nonempty set lies between
  one of them and a real upper bound of all of them.
-/
import proofs.«155762_j61460982005779_1_alg».proof.Proof.AlgWords

noncomputable section

open scoped BigOperators

namespace Cert.SupCon

open Idealize.ShloMosaic Idealize.ShloMosaic.ValueIdx

variable (feat : SFeat.Idx → EReal) (lab : SLab.Idx → BitVec 32)

/-- Every column is column q of some block n < 8. -/
theorem colOf_surj (c : Fin 8192) : ∃ n, n < 8 ∧ ∃ q : Fin 1024, colOf n q = c :=
  ⟨c.val / 1024, by have := c.isLt; omega, ⟨c.val % 1024, Nat.mod_lt _ (by norm_num)⟩, by
    apply Fin.ext
    simp only [colOf]
    have := c.isLt
    omega⟩

theorem rowMax_le_iff (r : Fin 8192) (M : EReal) :
    rowMax feat lab r ≤ M ↔ ∀ c, logit feat lab r c ≤ M := by
  rw [rowMax, word_neg_inf, Finset.fold_max_le]
  simp

theorem blockMax_le_iff (r : Fin 8192) (n : ℕ) (M : EReal) :
    blockMax feat lab r n ≤ M ↔ ∀ q, logit feat lab r (colOf n q) ≤ M := by
  rw [blockMax, word_neg_inf, Finset.fold_max_le]
  simp

theorem onMax_le_iff (r : Fin 8192) (n : ℕ) (M : EReal) :
    onMax feat lab r n ≤ M ↔ ∀ m, m < n → ∀ q, logit feat lab r (colOf m q) ≤ M := by
  induction n with
  | zero => simp [onMax, word_neg_inf]
  | succ n ih =>
    rw [onMax, max_le_iff, ih, blockMax_le_iff]
    constructor
    · rintro ⟨h1, h2⟩ m hm q
      rcases Nat.lt_succ_iff_lt_or_eq.mp hm with h | rfl
      · exact h1 m h q
      · exact h2 q
    · intro h
      exact ⟨fun m hm q => h m (Nat.lt_succ_of_lt hm) q, fun q => h n (Nat.lt_succ_self n) q⟩

/-- After all eight blocks the running maximum is the row's maximum. -/
theorem onMax_eight (r : Fin 8192) : onMax feat lab r 8 = rowMax feat lab r := by
  apply eq_of_forall_ge_iff
  intro M
  rw [onMax_le_iff, rowMax_le_iff]
  constructor
  · intro h c
    obtain ⟨n, hn, q, rfl⟩ := colOf_surj c
    exact h n hn q
  · intro h m _ q
    exact h _

variable {feat lab}

/-- After at least one block the running maximum of a row of real logits is a real number. -/
theorem onMax_isR {r : Fin 8192} (hx : ∀ c, IsR (logit feat lab r c)) {n : ℕ} (hn : 1 ≤ n) :
    IsR (onMax feat lab r n) := by
  choose x hx using hx
  have hle : onMax feat lab r n ≤ ((Finset.univ.sup' Finset.univ_nonempty x : ℝ) : EReal) := by
    rw [onMax_le_iff]
    intro m _ q
    rw [hx]
    exact EReal.coe_le_coe_iff.mpr (Finset.le_sup' x (Finset.mem_univ _))
  have hge : ((x (colOf 0 0) : ℝ) : EReal) ≤ onMax feat lab r n := by
    have := (onMax_le_iff feat lab r n (onMax feat lab r n)).mp le_rfl 0 hn 0
    rwa [hx] at this
  have h1 : onMax feat lab r n ≠ ⊤ := ne_top_of_le_ne_top (EReal.coe_ne_top _) hle
  have h2 : onMax feat lab r n ≠ ⊥ := ne_bot_of_le_ne_bot (EReal.coe_ne_bot _) hge
  exact ⟨(onMax feat lab r n).toReal, (EReal.coe_toReal h1 h2).symm⟩

end Cert.SupCon

end
-- ==== Proof.AlgOnline.lean ====
/-
  The running sums.

  The eight blocks of 1024 columns enumerate the 8192 columns once each, so a sum over the blocks of sums over
  a block is the sum over all columns.  The two plain running sums (the positives' logits, the positives' count)
  start from the word 0 and add one block at a time, so after n blocks they are the sums over the first n blocks.
  The exponential sum is kept relative to the running maximum: after n >= 1 blocks it is the sum over the
  first n blocks of exp (logit - running maximum) off the diagonal.  From nothing the old sum is 0 and
  0 times the rescaling factor is 0.  Afterwards both maxima are reals a and b, and
  exp (x - a) * exp (a - b) = exp (x - b) term by term.
-/
import proofs.«155762_j61460982005779_1_alg».proof.Proof.AlgMax

noncomputable section

open scoped BigOperators

namespace Cert.SupCon

open Idealize.ShloMosaic Idealize.ShloMosaic.ValueIdx

/-- Block and place within the block, against the column. -/
def blockEquiv : Fin 8 × Fin 1024 ≃ Fin 8192 where
  toFun z := colOf z.1.val z.2
  invFun c := (⟨c.val / 1024, by have := c.isLt; omega⟩, ⟨c.val % 1024, Nat.mod_lt _ (by norm_num)⟩)
  left_inv := by
    rintro ⟨a, q⟩
    have := a.isLt
    have := q.isLt
    apply Prod.ext <;> apply Fin.ext <;> simp only [colOf] <;> omega
  right_inv := by
    intro c
    have := c.isLt
    apply Fin.ext
    simp only [colOf]
    omega

/-- A sum over the eight blocks of sums over a block is the sum over all columns. -/
theorem sum_blocks {M : Type*} [AddCommMonoid M] (F : Fin 8192 → M) :
    ∑ m ∈ Finset.range 8, ∑ q : Fin 1024, F (colOf m q) = ∑ c, F c := by
  rw [← Fin.sum_univ_eq_sum_range (fun m => ∑ q : Fin 1024, F (colOf m q)) 8,
    ← Fintype.sum_prod_type' (fun (a : Fin 8) (q : Fin 1024) => F (colOf a.val q))]
  exact Fintype.sum_equiv blockEquiv _ _ fun z => rfl

variable (feat : SFeat.Idx → EReal) (lab : SLab.Idx → BitVec 32)

theorem onPosLogit_eq (r : Fin 8192) (n : ℕ) :
    onPosLogit feat lab r n
      = ∑ m ∈ Finset.range n, ∑ q : Fin 1024, pos lab r (colOf m q) * logit feat lab r (colOf m q) := by
  induction n with
  | zero => simp [onPosLogit]
  | succ n ih => rw [onPosLogit, ih, Finset.sum_range_succ]

theorem onPosLogit_eight (r : Fin 8192) :
    onPosLogit feat lab r 8 = ∑ c, pos lab r c * logit feat lab r c := by
  rw [onPosLogit_eq]
  exact sum_blocks fun c => pos lab r c * logit feat lab r c

theorem onPosCount_eq (r : Fin 8192) (n : ℕ) :
    onPosCount lab r n = ∑ m ∈ Finset.range n, ∑ q : Fin 1024, pos lab r (colOf m q) := by
  induction n with
  | zero => simp [onPosCount]
  | succ n ih => rw [onPosCount, ih, Finset.sum_range_succ]

theorem onPosCount_eight (r : Fin 8192) : onPosCount lab r 8 = ∑ c, pos lab r c := by
  rw [onPosCount_eq]
  exact sum_blocks fun c => pos lab r c

/-- One column's term of the exponential sum, relative to M. -/
def expTerm (r : Fin 8192) (M : EReal) (c : Fin 8192) : EReal :=
  Ideal.exp (logit feat lab r c - M) * offDiag r c

variable {feat lab}

/-- Relative to a real m, over real logits x, the term is the real exp (x c - m) off the diagonal. -/
theorem expTerm_coe {r : Fin 8192} {x : Fin 8192 → ℝ} (hx : ∀ c, logit feat lab r c = (x c : EReal))
    (m : ℝ) (c : Fin 8192) :
    expTerm feat lab r (m : EReal) c = ((Real.exp (x c - m) * offR r c : ℝ) : EReal) := by
  rw [expTerm, hx, ← EReal.coe_sub, Ideal.exp_coe, offDiag_eq, ← EReal.coe_mul]

/-- After n >= 1 blocks the running exponential sum is the sum over those blocks relative to the running maximum. -/
theorem onSum_eq {r : Fin 8192} (hx : ∀ c, IsR (logit feat lab r c)) {n : ℕ} (hn : 1 ≤ n) :
    onSum feat lab r n
      = ∑ m ∈ Finset.range n, ∑ q : Fin 1024, expTerm feat lab r (onMax feat lab r n) (colOf m q) := by
  induction n, hn using Nat.le_induction with
  | base =>
    rw [onSum, onSum, Ideal.ofBits_zero_f32, zero_mul, zero_add, Finset.sum_range_one]
    rfl
  | succ n hn ih =>
    obtain ⟨a, ha⟩ := onMax_isR hx hn
    obtain ⟨b, hb⟩ := onMax_isR hx (Nat.le_succ_of_le hn)
    choose x hx' using hx
    rw [onSum, ih, Finset.sum_range_succ, ha, hb]
    congr 1
    simp only [expTerm_coe hx']
    rw [← coe_sum₂, ← EReal.coe_sub, Ideal.exp_coe, ← EReal.coe_mul, ← coe_sum₂]
    congr 1
    rw [Finset.sum_mul]
    refine Finset.sum_congr rfl fun m _ => ?_
    rw [Finset.sum_mul]
    refine Finset.sum_congr rfl fun q _ => ?_
    rw [mul_right_comm, ← Real.exp_add]
    congr 2
    ring

/-- After all eight blocks the running exponential sum is the row's. -/
theorem onSum_eight {r : Fin 8192} (hx : ∀ c, IsR (logit feat lab r c)) :
    onSum feat lab r 8 = expSum feat lab r := by
  rw [onSum_eq hx (by norm_num), onMax_eight]
  exact sum_blocks fun c => expTerm feat lab r (rowMax feat lab r) c

end Cert.SupCon

end
-- ==== Proof.AlgMean.lean ====
/-
  The positives of a row, and the mean over them.

  Row r's partner is the same sample seen in the other view, column (r + 4096) mod 8192: it carries the
  same label and is not r itself, so it is a positive of row r.  Every mask value is 0 or 1, so the count of
  the positives is at least 1, and the exponential sum off the diagonal, whose terms are not negative and
  whose term at the partner is positive, is positive.  Over a nonzero count s = sum p the mean of
  (x - M) - L over the positives is (sum p x) / s - M - L.
-/
import proofs.«155762_j61460982005779_1_alg».proof.Proof.AlgWords

noncomputable section

open scoped BigOperators

namespace Cert.SupCon

open Idealize.ShloMosaic Idealize.ShloMosaic.ValueIdx

variable (lab : SLab.Idx → BitVec 32)

/-- The same sample in the other view. -/
def partner (r : Fin 8192) : Fin 8192 := ⟨(r.val + 4096) % 8192, Nat.mod_lt _ (by norm_num)⟩

theorem sampleOf_partner (r : Fin 8192) : sampleOf (partner r) = sampleOf r := by
  apply Fin.ext
  simp only [sampleOf, partner]
  have := r.isLt
  omega

theorem ne_partner (r : Fin 8192) : r ≠ partner r := by
  intro h
  have h' := congrArg Fin.val h
  simp only [partner] at h'
  have := r.isLt
  omega

theorem offR_partner (r : Fin 8192) : offR r (partner r) = 1 := by
  rw [offR, if_neg (ne_partner r)]

theorem posR_partner (r : Fin 8192) : posR lab r (partner r) = 1 := by
  rw [posR, offR_partner, sameR, labelOf, labelOf, sampleOf_partner, if_pos rfl, mul_one]

/-- A row has at least one positive. -/
theorem one_le_count (r : Fin 8192) : 1 ≤ ∑ c, posR lab r c := by
  calc (1 : ℝ) = posR lab r (partner r) := (posR_partner lab r).symm
    _ ≤ ∑ c, posR lab r c :=
      Finset.single_le_sum (fun c _ => posR_nonneg lab r c) (Finset.mem_univ (partner r))

/-- The exponential sum off the diagonal, relative to any real, is positive. -/
theorem expSum_pos (r : Fin 8192) (x : Fin 8192 → ℝ) (M : ℝ) :
    0 < ∑ c, Real.exp (x c - M) * offR r c := by
  refine Finset.sum_pos' (fun c _ => mul_nonneg (Real.exp_pos _).le (offR_nonneg r c))
    ⟨partner r, Finset.mem_univ _, ?_⟩
  rw [offR_partner, mul_one]
  exact Real.exp_pos _

/-- The mean of (x - M) - L over the positives. -/
theorem row_identity {ι : Type*} (s : Finset ι) (p x : ι → ℝ) (M L : ℝ) (hs : ∑ c ∈ s, p c ≠ 0) :
    (∑ c ∈ s, p c * ((x c - M) - L)) / (∑ c ∈ s, p c) = (∑ c ∈ s, p c * x c) / (∑ c ∈ s, p c) - M - L := by
  have h : ∑ c ∈ s, p c * ((x c - M) - L) = ∑ c ∈ s, p c * x c - (∑ c ∈ s, p c) * (M + L) := by
    rw [Finset.sum_mul, ← Finset.sum_sub_distrib]
    exact Finset.sum_congr rfl fun c _ => by ring
  rw [h]
  field_simp
  ring

end Cert.SupCon

end
-- ==== Proof.AlgMain.lean ====
/-
  The kernel's loss is the reference's, row by row.

  With finite features fix a row r: its logits are reals x, its maximum a real M (the running maximum after
  eight blocks), its exponential sum a positive real l, so that its logarithm is the real log l, and the
  count of its positives a real s >= 1.  The kernel's three running sums after eight blocks are the row's
  sums, and both losses are -1 times one real number by the mean identity.  The two results are the same
  mean of equal rows.
-/
import proofs.«155762_j61460982005779_1_alg».proof.Proof.AlgOnline
import proofs.«155762_j61460982005779_1_alg».proof.Proof.AlgMean

noncomputable section

open scoped BigOperators

namespace Cert.SupCon

open Idealize.ShloMosaic Idealize.ShloMosaic.ValueIdx

variable {feat : SFeat.Idx → EReal} (lab : SLab.Idx → BitVec 32)

theorem kernLoss_eq_refLoss (hfin : ∀ i, feat i ≠ ⊥ ∧ feat i ≠ ⊤) (r : Fin 8192) :
    kernLoss feat lab r = refLoss feat lab r := by
  have hxR : ∀ c, IsR (logit feat lab r c) := logit_isR lab hfin r
  obtain ⟨M, hM⟩ : IsR (rowMax feat lab r) := by
    rw [← onMax_eight]
    exact onMax_isR hxR (by norm_num)
  have hsum8 := onSum_eight hxR
  choose x hx using hxR
  have hl : 0 < ∑ c, Real.exp (x c - M) * offR r c := expSum_pos r x M
  have hL : expSum feat lab r = ((∑ c, Real.exp (x c - M) * offR r c : ℝ) : EReal) := by
    rw [expSum, hM, coe_sum]
    exact Finset.sum_congr rfl fun c _ => expTerm_coe hx M c
  have hlog : Ideal.log (expSum feat lab r)
      = ((Real.log (∑ c, Real.exp (x c - M) * offR r c) : ℝ) : EReal) := by
    rw [hL, Ideal.log_coe, if_neg (not_le.mpr hl)]
  have hs : (1 : ℝ) ≤ ∑ c, posR lab r c := one_le_count lab r
  have hs0 : ∑ c, posR lab r c ≠ 0 := by linarith
  have hcount : ∑ c, pos lab r c = ((∑ c, posR lab r c : ℝ) : EReal) := by
    rw [coe_sum]
    exact Finset.sum_congr rfl fun c _ => pos_eq lab r c
  have hS1 : ∑ c, pos lab r c * logit feat lab r c = ((∑ c, posR lab r c * x c : ℝ) : EReal) := by
    rw [coe_sum]
    exact Finset.sum_congr rfl fun c _ => by rw [pos_eq, hx, EReal.coe_mul]
  have hnum : ∑ c, pos lab r c * ((logit feat lab r c - rowMax feat lab r) - Ideal.log (expSum feat lab r))
      = ((∑ c, posR lab r c * ((x c - M) - Real.log (∑ c, Real.exp (x c - M) * offR r c)) : ℝ) : EReal) := by
    rw [coe_sum, hlog, hM]
    exact Finset.sum_congr rfl fun c _ => by rw [pos_eq, hx, EReal.coe_mul, EReal.coe_sub, EReal.coe_sub]
  rw [kernLoss, refLoss, onPosLogit_eight, onPosCount_eight, onMax_eight, hsum8, hnum, hcount, hS1, hlog, hM,
    Ideal.div_coe hs0, Ideal.div_coe hs0, ← EReal.coe_mul, ← EReal.coe_mul, ← EReal.coe_sub, ← EReal.coe_sub]
  congr 2
  rw [← div_eq_mul_one_div, ← div_eq_mul_one_div]
  exact (row_identity Finset.univ (posR lab r) x M _ hs0).symm

variable (feat)

/-- With finite features the kernel's result is the reference's. -/
theorem kernResult_eq_refResult (hfin : ∀ i, feat i ≠ ⊥ ∧ feat i ≠ ⊤) :
    kernResult feat lab = refResult feat lab := by
  unfold kernResult refResult
  congr 1
  exact Finset.sum_congr rfl fun r _ => kernLoss_eq_refLoss lab hfin r

end Cert.SupCon

end
-- ==== Proof.Pieces.lean ====
/-
  What the body leaves in the scratch columns and in the output block, case by case, as pure terms of what it loaded.

  The body has three control cases: the first column block of a row block (it stores the four initial columns, then
  advances them), a middle column block (it advances them), and the last column block (it advances them and then
  writes the losses from the advanced values).  In every case each scratch column ends at its last store's payload,
  whose loads read whole buffers: the input blocks as they are, and the scratch either as the point before left it
  or, in the first case, as the initial store just made it.
-/
import proofs.«155762_j61460982005779_1_alg».proof.Proof.Gen.KernelIdeal.Frame
import Idealize.ShloMosaic.Lib.Pipeline.Value
import Idealize.ShloMosaic.Lib.Tactic

set_option maxRecDepth 16384

noncomputable section

namespace Cert.SupCon.Pieces

open Idealize.ShloMosaic Idealize.ShloMosaic.TcCoe Idealize.SL.Sem Cert.KernelIdeal Cert.KernelIdeal.Gen

variable {F : FTy → Type} [FloatOps F]

theorem hz : (![0, 0] : Fin 2 → Nat) = fun _ => 0 := funext fun a => by fin_cases a <;> rfl

/-! ## A middle column block -/

theorem piece_B_0 (c : Dev nD) (i : grid0.Coords) (arg2 : Memref sig .tc .vmem S1024x256 .bf16) (harg2 : arg2.IsWhole) (arg3 : Memref sig .tc .vmem S256x1024 .bf16) (harg3 : arg3.IsWhole) (arg4 : Memref sig .tc .vmem S1024x1 .f32) (harg4 : arg4.IsWhole) (arg5 : Memref sig .tc .vmem S1024x1 .i32) (harg5 : arg5.IsWhole) (arg6 : Memref sig .tc .vmem S1x1024 .i32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i) (x0 : Vec F S1024x256 .bf16) (x1 : Vec F S256x1024 .bf16) (x2 : Vec F S1024x1 .f32) (x3 : Vec F S1024x1 .i32) (x4 : Vec F S1x1024 .i32) (xs0 : Vec F S1024x1 .f32) (xs1 : Vec F S1024x1 .f32) (xs2 : Vec F S1024x1 .f32) (xs3 : Vec F S1024x1 .f32) :
    sout0_B_0 c i arg2 harg2 arg3 harg3 arg4 harg4 arg5 harg5 arg6 harg6 arg7 harg7 arg8 harg8 arg9 harg9 arg10 harg10 arg11 harg11 hc0 hc1 x0 x1 x2 x3 x4 xs0 xs1 xs2 xs3 = k0_pay11 (k0_pay8 x0 x1 x3 x4 x2) xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 x3 x4 xs0 xs1 xs2 xs3)]
  unfold kernelRun0_B
  dsimp only
  sl_unfold_words
  first
    | rw [View.canon_unit_zero hz]
    | rw [View.canon_cons_unit_zero (S := S1024x1) hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S1024x1) hz, View.ld_unit_zero (S := S1024x256) hz, View.ld_unit_zero (S := S256x1024) hz, View.ld_unit_zero (S := S1x1024) hz]
  first | rfl | skip

theorem piece_B_1 (c : Dev nD) (i : grid0.Coords) (arg2 : Memref sig .tc .vmem S1024x256 .bf16) (harg2 : arg2.IsWhole) (arg3 : Memref sig .tc .vmem S256x1024 .bf16) (harg3 : arg3.IsWhole) (arg4 : Memref sig .tc .vmem S1024x1 .f32) (harg4 : arg4.IsWhole) (arg5 : Memref sig .tc .vmem S1024x1 .i32) (harg5 : arg5.IsWhole) (arg6 : Memref sig .tc .vmem S1x1024 .i32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i) (x0 : Vec F S1024x256 .bf16) (x1 : Vec F S256x1024 .bf16) (x2 : Vec F S1024x1 .f32) (x3 : Vec F S1024x1 .i32) (x4 : Vec F S1x1024 .i32) (xs0 : Vec F S1024x1 .f32) (xs1 : Vec F S1024x1 .f32) (xs2 : Vec F S1024x1 .f32) (xs3 : Vec F S1024x1 .f32) :
    sout0_B_1 c i arg2 harg2 arg3 harg3 arg4 harg4 arg5 harg5 arg6 harg6 arg7 harg7 arg8 harg8 arg9 harg9 arg10 harg10 arg11 harg11 hc0 hc1 x0 x1 x2 x3 x4 xs0 xs1 xs2 xs3 = k0_pay12 (k0_pay6 i) (k0_pay8 x0 x1 x3 x4 x2) xs0 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 hc0 hc1 x0 x1 x2 x3 x4 xs0 xs1 xs2 xs3)]
  unfold kernelRun0_B
  dsimp only
  sl_unfold_words
  first
    | rw [View.canon_unit_zero hz]
    | rw [View.canon_cons_unit_zero (S := S1024x1) hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S1024x1) hz, View.ld_unit_zero (S := S1024x256) hz, View.ld_unit_zero (S := S256x1024) hz, View.ld_unit_zero (S := S1x1024) hz]
  first | rfl | skip

theorem piece_B_2 (c : Dev nD) (i : grid0.Coords) (arg2 : Memref sig .tc .vmem S1024x256 .bf16) (harg2 : arg2.IsWhole) (arg3 : Memref sig .tc .vmem S256x1024 .bf16) (harg3 : arg3.IsWhole) (arg4 : Memref sig .tc .vmem S1024x1 .f32) (harg4 : arg4.IsWhole) (arg5 : Memref sig .tc .vmem S1024x1 .i32) (harg5 : arg5.IsWhole) (arg6 : Memref sig .tc .vmem S1x1024 .i32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i) (x0 : Vec F S1024x256 .bf16) (x1 : Vec F S256x1024 .bf16) (x2 : Vec F S1024x1 .f32) (x3 : Vec F S1024x1 .i32) (x4 : Vec F S1x1024 .i32) (xs0 : Vec F S1024x1 .f32) (xs1 : Vec F S1024x1 .f32) (xs2 : Vec F S1024x1 .f32) (xs3 : Vec F S1024x1 .f32) :
    sout0_B_2 c i arg2 harg2 arg3 harg3 arg4 harg4 arg5 harg5 arg6 harg6 arg7 harg7 arg8 harg8 arg9 harg9 arg10 harg10 arg11 harg11 hc0 hc1 x0 x1 x2 x3 x4 xs0 xs1 xs2 xs3 = k0_pay13 (k0_pay6 i) (k0_pay7 x3 x4) (k0_pay8 x0 x1 x3 x4 x2) xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 hc0 hc1 x0 x1 x2 x3 x4 xs0 xs1 xs2 xs3)]
  unfold kernelRun0_B
  dsimp only
  sl_unfold_words
  first
    | rw [View.canon_unit_zero hz]
    | rw [View.canon_cons_unit_zero (S := S1024x1) hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S1024x1) hz, View.ld_unit_zero (S := S1024x256) hz, View.ld_unit_zero (S := S256x1024) hz, View.ld_unit_zero (S := S1x1024) hz]
  first | rfl | skip

theorem piece_B_3 (c : Dev nD) (i : grid0.Coords) (arg2 : Memref sig .tc .vmem S1024x256 .bf16) (harg2 : arg2.IsWhole) (arg3 : Memref sig .tc .vmem S256x1024 .bf16) (harg3 : arg3.IsWhole) (arg4 : Memref sig .tc .vmem S1024x1 .f32) (harg4 : arg4.IsWhole) (arg5 : Memref sig .tc .vmem S1024x1 .i32) (harg5 : arg5.IsWhole) (arg6 : Memref sig .tc .vmem S1x1024 .i32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : ¬cond0_1 i) (x0 : Vec F S1024x256 .bf16) (x1 : Vec F S256x1024 .bf16) (x2 : Vec F S1024x1 .f32) (x3 : Vec F S1024x1 .i32) (x4 : Vec F S1x1024 .i32) (xs0 : Vec F S1024x1 .f32) (xs1 : Vec F S1024x1 .f32) (xs2 : Vec F S1024x1 .f32) (xs3 : Vec F S1024x1 .f32) :
    sout0_B_3 c i arg2 harg2 arg3 harg3 arg4 harg4 arg5 harg5 arg6 harg6 arg7 harg7 arg8 harg8 arg9 harg9 arg10 harg10 arg11 harg11 hc0 hc1 x0 x1 x2 x3 x4 xs0 xs1 xs2 xs3 = k0_pay14 (k0_pay6 i) (k0_pay7 x3 x4) xs3 := by
  unfold sout0_B_3
  rw [View.read_writes_eq_canon _ _ _ (scover0_B_3 c i arg2 harg2 arg3 harg3 arg4 harg4 arg5 harg5 arg6 harg6 arg7 harg7 arg8 harg8 arg9 harg9 arg10 harg10 arg11 harg11 hc0 hc1 x0 x1 x2 x3 x4 xs0 xs1 xs2 xs3)]
  unfold kernelRun0_B
  dsimp only
  sl_unfold_words
  first
    | rw [View.canon_unit_zero hz]
    | rw [View.canon_cons_unit_zero (S := S1024x1) hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S1024x1) hz, View.ld_unit_zero (S := S1024x256) hz, View.ld_unit_zero (S := S256x1024) hz, View.ld_unit_zero (S := S1x1024) hz]
  first | rfl | skip

/-! ## The last column block -/

theorem piece_C_0 (c : Dev nD) (i : grid0.Coords) (arg2 : Memref sig .tc .vmem S1024x256 .bf16) (harg2 : arg2.IsWhole) (arg3 : Memref sig .tc .vmem S256x1024 .bf16) (harg3 : arg3.IsWhole) (arg4 : Memref sig .tc .vmem S1024x1 .f32) (harg4 : arg4.IsWhole) (arg5 : Memref sig .tc .vmem S1024x1 .i32) (harg5 : arg5.IsWhole) (arg6 : Memref sig .tc .vmem S1x1024 .i32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i) (x0 : Vec F S1024x256 .bf16) (x1 : Vec F S256x1024 .bf16) (x2 : Vec F S1024x1 .f32) (x3 : Vec F S1024x1 .i32) (x4 : Vec F S1x1024 .i32) (xs0 : Vec F S1024x1 .f32) (xs1 : Vec F S1024x1 .f32) (xs2 : Vec F S1024x1 .f32) (xs3 : Vec F S1024x1 .f32) :
    sout0_C_0 c i arg2 harg2 arg3 harg3 arg4 harg4 arg5 harg5 arg6 harg6 arg7 harg7 arg8 harg8 arg9 harg9 arg10 harg10 arg11 harg11 hc0 hc1 x0 x1 x2 x3 x4 xs0 xs1 xs2 xs3 = k0_pay11 (k0_pay8 x0 x1 x3 x4 x2) xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 x2 x3 x4 xs0 xs1 xs2 xs3)]
  unfold kernelRun0_C
  dsimp only
  sl_unfold_words
  first
    | rw [View.canon_unit_zero hz]
    | rw [View.canon_cons_unit_zero (S := S1024x1) hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S1024x1) hz, View.ld_unit_zero (S := S1024x256) hz, View.ld_unit_zero (S := S256x1024) hz, View.ld_unit_zero (S := S1x1024) hz]
  first | rfl | skip

theorem piece_C_1 (c : Dev nD) (i : grid0.Coords) (arg2 : Memref sig .tc .vmem S1024x256 .bf16) (harg2 : arg2.IsWhole) (arg3 : Memref sig .tc .vmem S256x1024 .bf16) (harg3 : arg3.IsWhole) (arg4 : Memref sig .tc .vmem S1024x1 .f32) (harg4 : arg4.IsWhole) (arg5 : Memref sig .tc .vmem S1024x1 .i32) (harg5 : arg5.IsWhole) (arg6 : Memref sig .tc .vmem S1x1024 .i32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i) (x0 : Vec F S1024x256 .bf16) (x1 : Vec F S256x1024 .bf16) (x2 : Vec F S1024x1 .f32) (x3 : Vec F S1024x1 .i32) (x4 : Vec F S1x1024 .i32) (xs0 : Vec F S1024x1 .f32) (xs1 : Vec F S1024x1 .f32) (xs2 : Vec F S1024x1 .f32) (xs3 : Vec F S1024x1 .f32) :
    sout0_C_1 c i arg2 harg2 arg3 harg3 arg4 harg4 arg5 harg5 arg6 harg6 arg7 harg7 arg8 harg8 arg9 harg9 arg10 harg10 arg11 harg11 hc0 hc1 x0 x1 x2 x3 x4 xs0 xs1 xs2 xs3 = k0_pay12 (k0_pay6 i) (k0_pay8 x0 x1 x3 x4 x2) xs0 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 hc0 hc1 x0 x1 x2 x3 x4 xs0 xs1 xs2 xs3)]
  unfold kernelRun0_C
  dsimp only
  sl_unfold_words
  first
    | rw [View.canon_unit_zero hz]
    | rw [View.canon_cons_unit_zero (S := S1024x1) hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S1024x1) hz, View.ld_unit_zero (S := S1024x256) hz, View.ld_unit_zero (S := S256x1024) hz, View.ld_unit_zero (S := S1x1024) hz]
  first | rfl | skip

theorem piece_C_2 (c : Dev nD) (i : grid0.Coords) (arg2 : Memref sig .tc .vmem S1024x256 .bf16) (harg2 : arg2.IsWhole) (arg3 : Memref sig .tc .vmem S256x1024 .bf16) (harg3 : arg3.IsWhole) (arg4 : Memref sig .tc .vmem S1024x1 .f32) (harg4 : arg4.IsWhole) (arg5 : Memref sig .tc .vmem S1024x1 .i32) (harg5 : arg5.IsWhole) (arg6 : Memref sig .tc .vmem S1x1024 .i32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i) (x0 : Vec F S1024x256 .bf16) (x1 : Vec F S256x1024 .bf16) (x2 : Vec F S1024x1 .f32) (x3 : Vec F S1024x1 .i32) (x4 : Vec F S1x1024 .i32) (xs0 : Vec F S1024x1 .f32) (xs1 : Vec F S1024x1 .f32) (xs2 : Vec F S1024x1 .f32) (xs3 : Vec F S1024x1 .f32) :
    sout0_C_2 c i arg2 harg2 arg3 harg3 arg4 harg4 arg5 harg5 arg6 harg6 arg7 harg7 arg8 harg8 arg9 harg9 arg10 harg10 arg11 harg11 hc0 hc1 x0 x1 x2 x3 x4 xs0 xs1 xs2 xs3 = k0_pay13 (k0_pay6 i) (k0_pay7 x3 x4) (k0_pay8 x0 x1 x3 x4 x2) xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 hc0 hc1 x0 x1 x2 x3 x4 xs0 xs1 xs2 xs3)]
  unfold kernelRun0_C
  dsimp only
  sl_unfold_words
  first
    | rw [View.canon_unit_zero hz]
    | rw [View.canon_cons_unit_zero (S := S1024x1) hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S1024x1) hz, View.ld_unit_zero (S := S1024x256) hz, View.ld_unit_zero (S := S256x1024) hz, View.ld_unit_zero (S := S1x1024) hz]
  first | rfl | skip

theorem piece_C_3 (c : Dev nD) (i : grid0.Coords) (arg2 : Memref sig .tc .vmem S1024x256 .bf16) (harg2 : arg2.IsWhole) (arg3 : Memref sig .tc .vmem S256x1024 .bf16) (harg3 : arg3.IsWhole) (arg4 : Memref sig .tc .vmem S1024x1 .f32) (harg4 : arg4.IsWhole) (arg5 : Memref sig .tc .vmem S1024x1 .i32) (harg5 : arg5.IsWhole) (arg6 : Memref sig .tc .vmem S1x1024 .i32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i) (x0 : Vec F S1024x256 .bf16) (x1 : Vec F S256x1024 .bf16) (x2 : Vec F S1024x1 .f32) (x3 : Vec F S1024x1 .i32) (x4 : Vec F S1x1024 .i32) (xs0 : Vec F S1024x1 .f32) (xs1 : Vec F S1024x1 .f32) (xs2 : Vec F S1024x1 .f32) (xs3 : Vec F S1024x1 .f32) :
    sout0_C_3 c i arg2 harg2 arg3 harg3 arg4 harg4 arg5 harg5 arg6 harg6 arg7 harg7 arg8 harg8 arg9 harg9 arg10 harg10 arg11 harg11 hc0 hc1 x0 x1 x2 x3 x4 xs0 xs1 xs2 xs3 = k0_pay14 (k0_pay6 i) (k0_pay7 x3 x4) xs3 := by
  unfold sout0_C_3
  rw [View.read_writes_eq_canon _ _ _ (scover0_C_3 c i arg2 harg2 arg3 harg3 arg4 harg4 arg5 harg5 arg6 harg6 arg7 harg7 arg8 harg8 arg9 harg9 arg10 harg10 arg11 harg11 hc0 hc1 x0 x1 x2 x3 x4 xs0 xs1 xs2 xs3)]
  unfold kernelRun0_C
  dsimp only
  sl_unfold_words
  first
    | rw [View.canon_unit_zero hz]
    | rw [View.canon_cons_unit_zero (S := S1024x1) hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S1024x1) hz, View.ld_unit_zero (S := S1024x256) hz, View.ld_unit_zero (S := S256x1024) hz, View.ld_unit_zero (S := S1x1024) hz]
  first | rfl | skip

/-- The last column block's output block: the loss payload of the four columns as that block has just advanced them
    (its loads of the scratch read back what the stores just before them left). -/
theorem piece_C_5 (c : Dev nD) (i : grid0.Coords) (arg2 : Memref sig .tc .vmem S1024x256 .bf16) (harg2 : arg2.IsWhole) (arg3 : Memref sig .tc .vmem S256x1024 .bf16) (harg3 : arg3.IsWhole) (arg4 : Memref sig .tc .vmem S1024x1 .f32) (harg4 : arg4.IsWhole) (arg5 : Memref sig .tc .vmem S1024x1 .i32) (harg5 : arg5.IsWhole) (arg6 : Memref sig .tc .vmem S1x1024 .i32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : ¬cond0_0 i) (hc1 : cond0_1 i) (x0 : Vec F S1024x256 .bf16) (x1 : Vec F S256x1024 .bf16) (x2 : Vec F S1024x1 .f32) (x3 : Vec F S1024x1 .i32) (x4 : Vec F S1x1024 .i32) (xs0 : Vec F S1024x1 .f32) (xs1 : Vec F S1024x1 .f32) (xs2 : Vec F S1024x1 .f32) (xs3 : Vec F S1024x1 .f32) :
    out0_C_5 c i arg2 harg2 arg3 harg3 arg4 harg4 arg5 harg5 arg6 harg6 arg7 harg7 arg8 harg8 arg9 harg9 arg10 harg10 arg11 harg11 hc0 hc1 x0 x1 x2 x3 x4 xs0 xs1 xs2 xs3 = k0_pay1 (k0_pay13 (k0_pay6 i) (k0_pay7 x3 x4) (k0_pay8 x0 x1 x3 x4 x2) xs2) (k0_pay14 (k0_pay6 i) (k0_pay7 x3 x4) xs3) (k0_pay11 (k0_pay8 x0 x1 x3 x4 x2) xs0) (k0_pay12 (k0_pay6 i) (k0_pay8 x0 x1 x3 x4 x2) xs0 xs1) := by
  unfold out0_C_5
  rw [View.read_writes_eq_canon _ _ _ (cover0_C_5 c i arg2 harg2 arg3 harg3 arg4 harg4 arg5 harg5 arg6 harg6 arg7 harg7 arg8 harg8 arg9 harg9 arg10 harg10 arg11 harg11 hc0 hc1 x0 x1 x2 x3 x4 xs0 xs1 xs2 xs3)]
  unfold kernelRun0_C
  dsimp only
  sl_unfold_words
  first
    | rw [View.canon_unit_zero hz]
    | rw [View.canon_cons_unit_zero (S := S1024x1) hz]
  simp only [View.readAt_eq_ld, View.readCov_unit_zero (S := S1024x1) _ hz, harg2.read_unread, harg3.read_unread, harg4.read_unread, harg5.read_unread, harg6.read_unread, harg7.read_unread, harg8.read_unread, harg9.read_unread, harg10.read_unread, harg11.read_unread, View.ld_unit_zero (S := S1024x1) hz, View.ld_unit_zero (S := S1024x256) hz, View.ld_unit_zero (S := S256x1024) hz, View.ld_unit_zero (S := S1x1024) hz]
  first | rfl | skip

/-! ## The first column block -/

theorem piece_A_0 (c : Dev nD) (i : grid0.Coords) (arg2 : Memref sig .tc .vmem S1024x256 .bf16) (harg2 : arg2.IsWhole) (arg3 : Memref sig .tc .vmem S256x1024 .bf16) (harg3 : arg3.IsWhole) (arg4 : Memref sig .tc .vmem S1024x1 .f32) (harg4 : arg4.IsWhole) (arg5 : Memref sig .tc .vmem S1024x1 .i32) (harg5 : arg5.IsWhole) (arg6 : Memref sig .tc .vmem S1x1024 .i32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i) (x0 : Vec F S1024x256 .bf16) (x1 : Vec F S256x1024 .bf16) (x2 : Vec F S1024x1 .f32) (x3 : Vec F S1024x1 .i32) (x4 : Vec F S1x1024 .i32) :
    sout0_A_0 c i arg2 harg2 arg3 harg3 arg4 harg4 arg5 harg5 arg6 harg6 arg7 harg7 arg8 harg8 arg9 harg9 arg10 harg10 arg11 harg11 hc0 hc1 x0 x1 x2 x3 x4 = k0_pay11 (k0_pay8 x0 x1 x3 x4 x2) k0_pay2 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3 x4)]
  unfold kernelRun0_A
  dsimp only
  sl_unfold_words
  rw [View.canon_cons_unit_zero (S := S1024x1) hz]
  simp only [View.readAt_eq_ld, View.readCov_unit_zero (S := S1024x1) _ hz, harg2.read_unread, harg3.read_unread, harg4.read_unread, harg5.read_unread, harg6.read_unread, harg7.read_unread, harg8.read_unread, harg9.read_unread, harg10.read_unread, harg11.read_unread, View.ld_unit_zero (S := S1024x1) hz, View.ld_unit_zero (S := S1024x256) hz, View.ld_unit_zero (S := S256x1024) hz, View.ld_unit_zero (S := S1x1024) hz]
  first | rfl | skip

theorem piece_A_1 (c : Dev nD) (i : grid0.Coords) (arg2 : Memref sig .tc .vmem S1024x256 .bf16) (harg2 : arg2.IsWhole) (arg3 : Memref sig .tc .vmem S256x1024 .bf16) (harg3 : arg3.IsWhole) (arg4 : Memref sig .tc .vmem S1024x1 .f32) (harg4 : arg4.IsWhole) (arg5 : Memref sig .tc .vmem S1024x1 .i32) (harg5 : arg5.IsWhole) (arg6 : Memref sig .tc .vmem S1x1024 .i32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i) (x0 : Vec F S1024x256 .bf16) (x1 : Vec F S256x1024 .bf16) (x2 : Vec F S1024x1 .f32) (x3 : Vec F S1024x1 .i32) (x4 : Vec F S1x1024 .i32) :
    sout0_A_1 c i arg2 harg2 arg3 harg3 arg4 harg4 arg5 harg5 arg6 harg6 arg7 harg7 arg8 harg8 arg9 harg9 arg10 harg10 arg11 harg11 hc0 hc1 x0 x1 x2 x3 x4 = k0_pay12 (k0_pay6 i) (k0_pay8 x0 x1 x3 x4 x2) k0_pay2 k0_pay3 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 hc1 x0 x1 x2 x3 x4)]
  unfold kernelRun0_A
  dsimp only
  sl_unfold_words
  rw [View.canon_cons_unit_zero (S := S1024x1) hz]
  simp only [View.readAt_eq_ld, View.readCov_unit_zero (S := S1024x1) _ hz, harg2.read_unread, harg3.read_unread, harg4.read_unread, harg5.read_unread, harg6.read_unread, harg7.read_unread, harg8.read_unread, harg9.read_unread, harg10.read_unread, harg11.read_unread, View.ld_unit_zero (S := S1024x1) hz, View.ld_unit_zero (S := S1024x256) hz, View.ld_unit_zero (S := S256x1024) hz, View.ld_unit_zero (S := S1x1024) hz]
  first | rfl | skip

theorem piece_A_2 (c : Dev nD) (i : grid0.Coords) (arg2 : Memref sig .tc .vmem S1024x256 .bf16) (harg2 : arg2.IsWhole) (arg3 : Memref sig .tc .vmem S256x1024 .bf16) (harg3 : arg3.IsWhole) (arg4 : Memref sig .tc .vmem S1024x1 .f32) (harg4 : arg4.IsWhole) (arg5 : Memref sig .tc .vmem S1024x1 .i32) (harg5 : arg5.IsWhole) (arg6 : Memref sig .tc .vmem S1x1024 .i32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i) (x0 : Vec F S1024x256 .bf16) (x1 : Vec F S256x1024 .bf16) (x2 : Vec F S1024x1 .f32) (x3 : Vec F S1024x1 .i32) (x4 : Vec F S1x1024 .i32) :
    sout0_A_2 c i arg2 harg2 arg3 harg3 arg4 harg4 arg5 harg5 arg6 harg6 arg7 harg7 arg8 harg8 arg9 harg9 arg10 harg10 arg11 harg11 hc0 hc1 x0 x1 x2 x3 x4 = k0_pay13 (k0_pay6 i) (k0_pay7 x3 x4) (k0_pay8 x0 x1 x3 x4 x2) k0_pay4 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 hc0 hc1 x0 x1 x2 x3 x4)]
  unfold kernelRun0_A
  dsimp only
  sl_unfold_words
  rw [View.canon_cons_unit_zero (S := S1024x1) hz]
  simp only [View.readAt_eq_ld, View.readCov_unit_zero (S := S1024x1) _ hz, harg2.read_unread, harg3.read_unread, harg4.read_unread, harg5.read_unread, harg6.read_unread, harg7.read_unread, harg8.read_unread, harg9.read_unread, harg10.read_unread, harg11.read_unread, View.ld_unit_zero (S := S1024x1) hz, View.ld_unit_zero (S := S1024x256) hz, View.ld_unit_zero (S := S256x1024) hz, View.ld_unit_zero (S := S1x1024) hz]
  first | rfl | skip

theorem piece_A_3 (c : Dev nD) (i : grid0.Coords) (arg2 : Memref sig .tc .vmem S1024x256 .bf16) (harg2 : arg2.IsWhole) (arg3 : Memref sig .tc .vmem S256x1024 .bf16) (harg3 : arg3.IsWhole) (arg4 : Memref sig .tc .vmem S1024x1 .f32) (harg4 : arg4.IsWhole) (arg5 : Memref sig .tc .vmem S1024x1 .i32) (harg5 : arg5.IsWhole) (arg6 : Memref sig .tc .vmem S1x1024 .i32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x1 .f32) (harg9 : arg9.IsWhole) (arg10 : Memref sig .tc .vmem S1024x1 .f32) (harg10 : arg10.IsWhole) (arg11 : Memref sig .tc .vmem S1024x1 .f32) (harg11 : arg11.IsWhole) (hc0 : cond0_0 i) (hc1 : ¬cond0_1 i) (x0 : Vec F S1024x256 .bf16) (x1 : Vec F S256x1024 .bf16) (x2 : Vec F S1024x1 .f32) (x3 : Vec F S1024x1 .i32) (x4 : Vec F S1x1024 .i32) :
    sout0_A_3 c i arg2 harg2 arg3 harg3 arg4 harg4 arg5 harg5 arg6 harg6 arg7 harg7 arg8 harg8 arg9 harg9 arg10 harg10 arg11 harg11 hc0 hc1 x0 x1 x2 x3 x4 = k0_pay14 (k0_pay6 i) (k0_pay7 x3 x4) k0_pay5 := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 hc0 hc1 x0 x1 x2 x3 x4)]
  unfold kernelRun0_A
  dsimp only
  sl_unfold_words
  rw [View.canon_cons_unit_zero (S := S1024x1) hz]
  simp only [View.readAt_eq_ld, View.readCov_unit_zero (S := S1024x1) _ hz, harg2.read_unread, harg3.read_unread, harg4.read_unread, harg5.read_unread, harg6.read_unread, harg7.read_unread, harg8.read_unread, harg9.read_unread, harg10.read_unread, harg11.read_unread, View.ld_unit_zero (S := S1024x1) hz, View.ld_unit_zero (S := S1024x256) hz, View.ld_unit_zero (S := S256x1024) hz, View.ld_unit_zero (S := S1x1024) hz]
  first | rfl | skip

end Cert.SupCon.Pieces

end
-- ==== Proof.LibColumnBroadcast.lean ====
/-
  A column spread over many columns, read at an entry.

  A `vector.broadcast` of an `[a, 1]` array to `[a, b]` repeats the one column `b` times: the entry at row `p` and column
  `c` is the column's entry at row `p`, whatever `c`. (The companion of the row form `[1, b] → [a, b]`; it is what a
  reduction that keeps its axis, or a bias turned into a column, is spread back with.)
-/
import Idealize.ShloMosaic.Lib.Pipeline.Value
import Idealize.ShloMosaic.Lib.ValueIdx

namespace Cert.LibColumnBroadcast

open Idealize.ShloMosaic Idealize.ShloMosaic.ValueIdx

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnBroadcast
-- ==== Proof.PayloadMasks.lean ====
/-
  The kernel body's two masks and its logits, read one entry at a time.

  At a grid point the body sees a block of 1024 anchor rows and a block of 1024 contrast columns.  The label mask,
  the off-diagonal mask and the logit are read here at a coordinate (p, q) of the block, under hypotheses that say
  what the loaded blocks hold at the coordinates that entry depends on: row p of the anchor block is anchor r,
  column q of the contrast block is anchor c.  The conclusions are the specification's same, offDiag and logit.
-/
import proofs.«155762_j61460982005779_1_alg».proof.Proof.Gen.KernelIdeal.Skeleton
import proofs.«155762_j61460982005779_1_alg».proof.Proof.Spec
import proofs.«155762_j61460982005779_1_alg».proof.Proof.LibColumnBroadcast
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.SupCon.Body

open Idealize.ShloMosaic Idealize.ShloMosaic.ValueIdx Cert.KernelIdeal Cert.KernelIdeal.Gen Cert.SupCon
open Cert.LibColumnBroadcast

variable (feat : SFeat.Idx → EReal) (lab : SLab.Idx → BitVec 32)

/-! ## Words -/

/-- The one-bit comparison of two words, widened and read as a signed integer, is 1 where they agree and 0 where not. -/
theorem sitofp_eq_bit (a b : BitVec 32) :
    (FloatOps.sitofp (F := Ideal) .f32 ((IntOp.cmpi .eq a b).setWidth 32) : EReal) = if a = b then 1 else 0 := by
  show (((((IntOp.cmpi .eq a b).setWidth 32).toInt : ℤ) : ℝ) : EReal) = _
  by_cases h : a = b
  · subst h
    have : IntOp.cmpi .eq a a = 1#1 := by simp [IntOp.cmpi]
    rw [this, if_pos rfl]
    norm_num
  · have hb : (a == b) = false := beq_eq_false_iff_ne.mpr h
    have : IntOp.cmpi .eq a b = 0#1 := by simp [IntOp.cmpi, hb]
    rw [this, if_neg h]
    norm_num

/-- Row and column numbers below 8192, as 32-bit words, are equal exactly when the numbers are. -/
theorem ofNat_eq_iff (a b : ℕ) (ha : a < 8192) (hb : b < 8192) : BitVec.ofNat 32 a = BitVec.ofNat 32 b ↔ a = b := by
  constructor
  · intro h
    have := congrArg BitVec.toNat h
    simp only [BitVec.toNat_ofNat] at this
    omega
  · intro h; rw [h]

/-! ## The two masks and the logit -/

/-- The label mask at (p, q): 1 where row p's anchor and column q's anchor carry the same label. -/
theorem pay7_apply (xr : Vec Ideal S1024x1 .i32) (xl : Vec Ideal S1x1024 .i32) (r c : Fin 8192) (p q : Fin 1024)
    (hr : xr (ix2 p (0 : Fin 1)) = labelOf lab r) (hl : xl (ix2 (0 : Fin 1) q) = labelOf lab c) :
    k0_pay7 (F := Ideal) xr xl (ix2 p q) = same lab r c := by
  unfold k0_pay7
  rw [shapeCast_self, shapeCast_self]
  refine (sitofp_apply _ _).trans ?_
  refine (congrArg (FloatOps.sitofp (F := Ideal) .f32) (extui_apply _ _ _)).trans ?_
  have e : (cmpi .eq (broadcastTo S1024x1024 xr Facts₀.broadcasts_S1024x1_S1024x1024) (broadcastTo S1024x1024 xl Facts₀.broadcasts_S1x1024_S1024x1024) : IVec S1024x1024 1) (ix2 p q)
      = IntOp.cmpi .eq (labelOf lab r) (labelOf lab c) := by
    show IntOp.cmpi .eq (broadcastTo S1024x1024 xr Facts₀.broadcasts_S1024x1_S1024x1024 (ix2 p q)) (broadcastTo S1024x1024 xl Facts₀.broadcasts_S1x1024_S1024x1024 (ix2 p q)) = _
    rw [broadcastTo_a1_ab_apply, broadcastTo_1b_ab_apply, hr, hl]
  rw [e, sitofp_eq_bit]
  rfl

/-- The off-diagonal mask at (p, q) of the block at grid coordinates i: 0 where the global row and column coincide. -/
theorem pay6_apply (i : grid0.Coords) (r c : Fin 8192) (p q : Fin 1024)
    (hr : r.val = (i 0).val * 1024 + p.val) (hc : c.val = (i 1).val * 1024 + q.val) :
    k0_pay6 (F := Ideal) i (ix2 p q) = offDiag r c := by
  unfold k0_pay6
  try dsimp only
  refine (select_apply _ _ _ _).trans ?_
  have hi0 : (i 0).val < 8 := (i 0).isLt
  have hi1 : (i 1).val < 8 := (i 1).isLt
  have e : (cmpi .eq (addi (iota .tc S1024x1024 32 [0] Facts₀.iota_S1024x1024_d0_w32) (broadcast S1024x1024 (Scalar.muli (BitVec.ofNat 32 (i 0).val) 1024#32)))
      (addi (iota .tc S1024x1024 32 [1] Facts₀.iota_S1024x1024_d1_w32) (broadcast S1024x1024 (Scalar.muli (BitVec.ofNat 32 (i 1).val) 1024#32))) : IVec S1024x1024 1) (ix2 p q)
      = IntOp.cmpi .eq (BitVec.ofNat 32 r.val) (BitVec.ofNat 32 c.val) := by
    show IntOp.cmpi .eq (IntOp.addi (iota .tc S1024x1024 32 [0] Facts₀.iota_S1024x1024_d0_w32 (ix2 p q)) (Scalar.muli (BitVec.ofNat 32 (i 0).val) 1024#32))
      (IntOp.addi (iota .tc S1024x1024 32 [1] Facts₀.iota_S1024x1024_d1_w32 (ix2 p q)) (Scalar.muli (BitVec.ofNat 32 (i 1).val) 1024#32)) = _
    rw [iota_single_apply, iota_single_apply]
    have e0 : IntOp.addi (BitVec.ofNat 32 ((ix2 p q : S1024x1024.Idx) 0).val) (Scalar.muli (BitVec.ofNat 32 (i 0).val) 1024#32)
        = BitVec.ofNat 32 r.val := by
      show BitVec.ofNat 32 p.val + BitVec.ofNat 32 (i 0).val * 1024#32 = _
      apply BitVec.eq_of_toNat_eq
      simp only [BitVec.toNat_add, BitVec.toNat_mul, BitVec.toNat_ofNat]
      have := p.isLt
      omega
    have e1 : IntOp.addi (BitVec.ofNat 32 ((ix2 p q : S1024x1024.Idx) 1).val) (Scalar.muli (BitVec.ofNat 32 (i 1).val) 1024#32)
        = BitVec.ofNat 32 c.val := by
      show BitVec.ofNat 32 q.val + BitVec.ofNat 32 (i 1).val * 1024#32 = _
      apply BitVec.eq_of_toNat_eq
      simp only [BitVec.toNat_add, BitVec.toNat_mul, BitVec.toNat_ofNat]
      have := q.isLt
      omega
    rw [e0, e1]
  rw [e]
  unfold offDiag
  by_cases h : r = c
  · subst h
    have : IntOp.cmpi .eq (BitVec.ofNat 32 r.val) (BitVec.ofNat 32 r.val) = 1#1 := by simp [IntOp.cmpi]
    rw [this, select_one, if_pos rfl]
    exact Ideal.ofBits_zero_f32
  · have hne : ¬ BitVec.ofNat 32 r.val = BitVec.ofNat 32 c.val := fun e =>
      h (Fin.ext ((ofNat_eq_iff r.val c.val r.isLt c.isLt).mp e))
    have hb : (BitVec.ofNat 32 r.val == BitVec.ofNat 32 c.val) = false := beq_eq_false_iff_ne.mpr hne
    have : IntOp.cmpi .eq (BitVec.ofNat 32 r.val) (BitVec.ofNat 32 c.val) = 0#1 := by simp [IntOp.cmpi, hb]
    rw [this, select_zero, if_neg h]
    exact word_one

/-- The product's operand indices at output (p, q) and contraction index k: (p, k) on the left, (k, q) on the right. -/
theorem lhs_coord0 (i : S1024x1024.Idx) (k : dot_S1024x256_S256x1024_S1024x1024_1_0_0_1_n_n.contr.Idx) : (dot_S1024x256_S256x1024_S1024x1024_1_0_0_1_n_n.lhsIdx i k 0).val = (i 0).val := by
  unfold DotDims.lhsIdx
  rw [dif_neg (show ¬(0 : Fin S1024x256.rank) ∈ dot_S1024x256_S256x1024_S1024x1024_1_0_0_1_n_n.lhsBatch by decide), dif_pos (show (0 : Fin S1024x256.rank) ∈ dot_S1024x256_S256x1024_S1024x1024_1_0_0_1_n_n.lhsNonContracting by decide)]
  rfl
theorem lhs_coord1 (i : S1024x1024.Idx) (k : dot_S1024x256_S256x1024_S1024x1024_1_0_0_1_n_n.contr.Idx) : (dot_S1024x256_S256x1024_S1024x1024_1_0_0_1_n_n.lhsIdx i k 1).val = (k ⟨0, by decide⟩).val :=
  dot_S1024x256_S256x1024_S1024x1024_1_0_0_1_n_n.lhsIdx_val_of_single rfl i k
theorem rhs_coord0 (i : S1024x1024.Idx) (k : dot_S1024x256_S256x1024_S1024x1024_1_0_0_1_n_n.contr.Idx) : (dot_S1024x256_S256x1024_S1024x1024_1_0_0_1_n_n.rhsIdx i k 0).val = (k ⟨0, by decide⟩).val :=
  dot_S1024x256_S256x1024_S1024x1024_1_0_0_1_n_n.rhsIdx_val_of_single rfl i k
theorem rhs_coord1 (i : S1024x1024.Idx) (k : dot_S1024x256_S256x1024_S1024x1024_1_0_0_1_n_n.contr.Idx) : (dot_S1024x256_S256x1024_S1024x1024_1_0_0_1_n_n.rhsIdx i k 1).val = (i 1).val := by
  unfold DotDims.rhsIdx
  rw [dif_neg (show ¬(1 : Fin S256x1024.rank) ∈ dot_S1024x256_S256x1024_S1024x1024_1_0_0_1_n_n.rhsBatch by decide), dif_pos (show (1 : Fin S256x1024.rank) ∈ dot_S1024x256_S256x1024_S1024x1024_1_0_0_1_n_n.rhsNonContracting by decide)]
  rfl

/-- The product of the anchor block and the contrast block at (p, q) is the inner product of the two anchors: the
    contraction's one axis re-indexed by its coordinate k. -/
theorem matmul_block_apply (xa : FVec Ideal S1024x256 .bf16) (xc : FVec Ideal S256x1024 .bf16) (r c : Fin 8192) (p q : Fin 1024)
    (ha : ∀ k : Fin 256, xa (ix2 p k) = contrast feat r k) (hc : ∀ k : Fin 256, xc (ix2 k q) = contrast feat c k) :
    matmul (F := Ideal) dot_S1024x256_S256x1024_S1024x1024_1_0_0_1_n_n none xa xc (constant S1024x1024 .f32 0x00000000#32) (ix2 p q) = gram feat r c := by
  simp only [matmul]
  rw [Ideal.matmul_constant_zero_apply, ← Equiv.sum_comp (contrEquiv1 dot_S1024x256_S256x1024_S1024x1024_1_0_0_1_n_n 256 rfl rfl).symm]
  unfold gram
  refine Finset.sum_congr rfl fun k _ => ?_
  have hk := contrEquiv1_symm_val dot_S1024x256_S256x1024_S1024x1024_1_0_0_1_n_n 256 rfl rfl k
  have el : dot_S1024x256_S256x1024_S1024x1024_1_0_0_1_n_n.lhsIdx (ix2 p q) ((contrEquiv1 dot_S1024x256_S256x1024_S1024x1024_1_0_0_1_n_n 256 rfl rfl).symm k) = ix2 p k := funext fun a => Fin.ext (by
    match a with
    | ⟨0, _⟩ => exact lhs_coord0 _ _
    | ⟨1, _⟩ => exact (lhs_coord1 _ _).trans hk)
  have er : dot_S1024x256_S256x1024_S1024x1024_1_0_0_1_n_n.rhsIdx (ix2 p q) ((contrEquiv1 dot_S1024x256_S256x1024_S1024x1024_1_0_0_1_n_n 256 rfl rfl).symm k) = ix2 k q := funext fun a => Fin.ext (by
    match a with
    | ⟨0, _⟩ => exact (rhs_coord0 _ _).trans hk
    | ⟨1, _⟩ => exact rhs_coord1 _ _)
  rw [el, er, ha k, hc k]

/-- The logit at (p, q). -/
theorem pay8_apply (xa : FVec Ideal S1024x256 .bf16) (xc : FVec Ideal S256x1024 .bf16) (xr : Vec Ideal S1024x1 .i32)
    (xl : Vec Ideal S1x1024 .i32) (xs : FVec Ideal S1024x1 .f32) (r c : Fin 8192) (p q : Fin 1024)
    (ha : ∀ k : Fin 256, xa (ix2 p k) = contrast feat r k) (hc : ∀ k : Fin 256, xc (ix2 k q) = contrast feat c k)
    (hr : xr (ix2 p (0 : Fin 1)) = labelOf lab r) (hl : xl (ix2 (0 : Fin 1) q) = labelOf lab c)
    (hs : xs (ix2 p (0 : Fin 1)) = sqNorm feat r) :
    k0_pay8 (F := Ideal) xa xc xr xl xs (ix2 p q) = logit feat lab r c := by
  unfold k0_pay8
  try dsimp only
  rw [shapeCast_self, shapeCast_self, shapeCast_self]
  refine (divf_apply _ _ _).trans ?_
  unfold logit
  refine congrArg₂ Ideal.div ?_ rfl
  refine (subf_apply _ _ _).trans ?_
  refine congrArg₂ (· - ·) (matmul_block_apply feat xa xc r c p q ha hc) ?_
  refine (mulf_apply _ _ _).trans ?_
  refine congrArg₂ (· * ·) ?_ ((broadcastTo_a1_ab_apply xs _ p q).trans hs)
  refine (mulf_apply _ _ _).trans ?_
  exact congrArg₂ (· * ·) rfl (pay7_apply lab xr xl r c p q hr hl)

end Cert.SupCon.Body

end
-- ==== Proof.PayloadSteps.lean ====
/-
  One column block's step of the kernel's four running values, read at a row.

  Given the block's logits, its off-diagonal mask and its label mask at row p (as the specification's quantities for
  anchor r against columns colOf n q), and the four running values the scratch held at row p after n blocks, the
  values the body stores are the specification's after n + 1 blocks; and from the four values after all eight blocks
  the body's last payload is the row's loss.
-/
import proofs.«155762_j61460982005779_1_alg».proof.Proof.Gen.KernelIdeal.Skeleton
import proofs.«155762_j61460982005779_1_alg».proof.Proof.Spec
import proofs.«155762_j61460982005779_1_alg».proof.Proof.LibColumnBroadcast
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.SupCon.Body

open Idealize.ShloMosaic Idealize.ShloMosaic.ValueIdx Cert.KernelIdeal Cert.KernelIdeal.Gen Cert.SupCon
open Cert.LibColumnBroadcast

variable (feat : SFeat.Idx → EReal) (lab : SLab.Idx → BitVec 32)

/-! ## One block's step of the four running values, at row p -/

/-- A [1024] row vector viewed as a [1024, 1] column reads, at (p, 0), the vector at p. -/
theorem column_of_vector {α : Type} (v : S1024.Idx → α) (p : Fin 1024) :
    shapeCast S1024x1 v Facts₀.shapeCasts_S1024_S1024x1 (ix2 p (0 : Fin 1)) = v (ix1 p) := by
  refine shapeCast_apply v _ (ix2 p (0 : Fin 1)) (ix1 p) ?_
  rw [Shape.rowMajor_val_one, Shape.rowMajor_val_two]
  show p.val = p.val * 1 + 0
  omega

/-- The index a reduction over the second axis of a [1024, 1024] block inserts at row p, column q, is (p, q). -/
theorem lift_row (p q : Fin 1024) :
    (Facts₀.reduces_S1024x1024_S1024 : S1024x1024.Reduces [1] S1024).lift (ix1 p) q = ix2 p q := by
  funext a; refine Fin.ext ?_
  match a with
  | ⟨0, _⟩ => rfl
  | ⟨1, _⟩ => rfl

/-- The running maximum's step. -/
theorem pay9_apply (v37 : FVec Ideal S1024x1024 .f32) (mold : Vec Ideal S1024x1 .f32) (r : Fin 8192) (n : ℕ) (p : Fin 1024)
    (hv : ∀ q : Fin 1024, v37 (ix2 p q) = logit feat lab r (colOf n q))
    (hm : mold (ix2 p (0 : Fin 1)) = onMax feat lab r n) :
    k0_pay9 (F := Ideal) v37 mold (ix2 p (0 : Fin 1)) = onMax feat lab r (n + 1) := by
  unfold k0_pay9
  dsimp only
  refine (maximumf_apply _ _ _).trans ?_
  refine Eq.trans ?_ (show max (onMax feat lab r n) (blockMax feat lab r n) = onMax feat lab r (n + 1) from rfl)
  refine congrArg₂ max hm ?_
  refine (column_of_vector _ p).trans ?_
  refine (Ideal.multiReduction_maximumf_single v37 0xFF800000#32 Facts₀.reduces_S1024x1024_S1024 (.inl rfl) rfl (ix1 p)).trans ?_
  unfold blockMax
  refine congrArg (fun f => Finset.fold max (Ideal.ofBits .f32 0xFF800000#32) f (Finset.univ : Finset (Fin 1024))) ?_
  funext q
  exact (congrArg v37 (lift_row p q)).trans (hv q)

/-- The exponential of a vector, read at an index. -/
theorem exp_apply {s : Shape} {φ : FTy} (a : FVec Ideal s φ) (i : s.Idx) : exp a i = Ideal.exp (a i) := rfl
/-- The logarithm of a vector, read at an index. -/
theorem log_apply {s : Shape} {φ : FTy} (a : FVec Ideal s φ) (i : s.Idx) : log a i = Ideal.log (a i) := rfl

/-- The running exponential sum's step. -/
theorem pay12_apply (v19 v37 : FVec Ideal S1024x1024 .f32) (mold lold : Vec Ideal S1024x1 .f32) (r : Fin 8192) (n : ℕ) (p : Fin 1024)
    (hv : ∀ q : Fin 1024, v37 (ix2 p q) = logit feat lab r (colOf n q))
    (ho : ∀ q : Fin 1024, v19 (ix2 p q) = offDiag r (colOf n q))
    (hm : mold (ix2 p (0 : Fin 1)) = onMax feat lab r n)
    (hl : lold (ix2 p (0 : Fin 1)) = onSum feat lab r n) :
    k0_pay12 (F := Ideal) v19 v37 mold lold (ix2 p (0 : Fin 1)) = onSum feat lab r (n + 1) := by
  have h9 := pay9_apply feat lab v37 mold r n p hv hm
  unfold k0_pay12
  dsimp only
  refine (congrFun (shapeCast_self _ _) _).trans ?_
  refine (addf_apply _ _ _).trans ?_
  refine Eq.trans ?_ (show onSum feat lab r n * Ideal.exp (onMax feat lab r n - onMax feat lab r (n + 1))
      + ∑ q : Fin 1024, Ideal.exp (logit feat lab r (colOf n q) - onMax feat lab r (n + 1)) * offDiag r (colOf n q)
      = onSum feat lab r (n + 1) from rfl)
  refine congrArg₂ (· + ·) ?_ ?_
  · refine (mulf_apply _ _ _).trans ?_
    refine congrArg₂ (· * ·) hl ?_
    refine (exp_apply _ _).trans ?_
    refine congrArg Ideal.exp ?_
    refine (subf_apply _ _ _).trans ?_
    exact congrArg₂ (· - ·) hm h9
  · refine (column_of_vector _ p).trans ?_
    refine (Ideal.multiReduction_add_single _ 0x00000000#32 Facts₀.reduces_S1024x1024_S1024 (.inl rfl) rfl (ix1 p)).trans ?_
    refine Finset.sum_congr rfl fun q _ => ?_
    refine (congrArg _ (lift_row p q)).trans ?_
    refine (mulf_apply _ _ _).trans ?_
    refine congrArg₂ (· * ·) ?_ (ho q)
    refine (exp_apply _ _).trans ?_
    refine congrArg Ideal.exp ?_
    refine (subf_apply _ _ _).trans ?_
    refine congrArg₂ (· - ·) (hv q) ?_
    exact (broadcastTo_a1_ab_apply _ _ p q).trans h9

/-- The positives' logit sum's step. -/
theorem pay13_apply (v19 v28 v37 : FVec Ideal S1024x1024 .f32) (sold : Vec Ideal S1024x1 .f32) (r : Fin 8192) (n : ℕ) (p : Fin 1024)
    (hv : ∀ q : Fin 1024, v37 (ix2 p q) = logit feat lab r (colOf n q))
    (ho : ∀ q : Fin 1024, v19 (ix2 p q) = offDiag r (colOf n q))
    (hs : ∀ q : Fin 1024, v28 (ix2 p q) = same lab r (colOf n q))
    (hold : sold (ix2 p (0 : Fin 1)) = onPosLogit feat lab r n) :
    k0_pay13 (F := Ideal) v19 v28 v37 sold (ix2 p (0 : Fin 1)) = onPosLogit feat lab r (n + 1) := by
  unfold k0_pay13 k0_pay10
  dsimp only
  refine (congrFun (shapeCast_self _ _) _).trans ?_
  refine (addf_apply _ _ _).trans ?_
  refine Eq.trans ?_ (show onPosLogit feat lab r n
      + ∑ q : Fin 1024, pos lab r (colOf n q) * logit feat lab r (colOf n q) = onPosLogit feat lab r (n + 1) from rfl)
  refine congrArg₂ (· + ·) hold ?_
  refine (column_of_vector _ p).trans ?_
  refine (Ideal.multiReduction_add_single _ 0x00000000#32 Facts₀.reduces_S1024x1024_S1024 (.inl rfl) rfl (ix1 p)).trans ?_
  refine Finset.sum_congr rfl fun q _ => ?_
  refine (congrArg _ (lift_row p q)).trans ?_
  refine (mulf_apply _ _ _).trans ?_
  refine congrArg₂ (· * ·) ?_ (hv q)
  refine (mulf_apply _ _ _).trans ?_
  exact congrArg₂ (· * ·) (hs q) (ho q)

/-- The positives' count's step. -/
theorem pay14_apply (v19 v28 : FVec Ideal S1024x1024 .f32) (sold : Vec Ideal S1024x1 .f32) (r : Fin 8192) (n : ℕ) (p : Fin 1024)
    (ho : ∀ q : Fin 1024, v19 (ix2 p q) = offDiag r (colOf n q))
    (hs : ∀ q : Fin 1024, v28 (ix2 p q) = same lab r (colOf n q))
    (hold : sold (ix2 p (0 : Fin 1)) = onPosCount lab r n) :
    k0_pay14 (F := Ideal) v19 v28 sold (ix2 p (0 : Fin 1)) = onPosCount lab r (n + 1) := by
  unfold k0_pay14 k0_pay10
  dsimp only
  refine (congrFun (shapeCast_self _ _) _).trans ?_
  refine (addf_apply _ _ _).trans ?_
  refine Eq.trans ?_ (show onPosCount lab r n + ∑ q : Fin 1024, pos lab r (colOf n q) = onPosCount lab r (n + 1) from rfl)
  refine congrArg₂ (· + ·) hold ?_
  refine (column_of_vector _ p).trans ?_
  refine (Ideal.multiReduction_add_single _ 0x00000000#32 Facts₀.reduces_S1024x1024_S1024 (.inl rfl) rfl (ix1 p)).trans ?_
  refine Finset.sum_congr rfl fun q _ => ?_
  refine (congrArg _ (lift_row p q)).trans ?_
  refine (mulf_apply _ _ _).trans ?_
  exact congrArg₂ (· * ·) (hs q) (ho q)

/-- The row's loss from the four running values after the last block. -/
theorem pay1_apply (s1 s0 mx l : Vec Ideal S1024x1 .f32) (r : Fin 8192) (p : Fin 1024)
    (h1 : s1 (ix2 p (0 : Fin 1)) = onPosLogit feat lab r 8) (h0 : s0 (ix2 p (0 : Fin 1)) = onPosCount lab r 8)
    (hm : mx (ix2 p (0 : Fin 1)) = onMax feat lab r 8) (hl : l (ix2 p (0 : Fin 1)) = onSum feat lab r 8) :
    k0_pay1 (F := Ideal) s1 s0 mx l (ix2 p (0 : Fin 1)) = kernLoss feat lab r := by
  unfold k0_pay1
  refine (mulf_apply _ _ _).trans ?_
  unfold kernLoss
  refine congrArg₂ (· * ·) rfl ?_
  refine (subf_apply _ _ _).trans ?_
  refine congrArg₂ (· - ·) ?_ ?_
  · refine (subf_apply _ _ _).trans ?_
    refine congrArg₂ (· - ·) ?_ hm
    refine (divf_apply _ _ _).trans ?_
    exact congrArg₂ Ideal.div h1 h0
  · refine (log_apply _ _).trans ?_
    exact congrArg Ideal.log hl

/-! ## The four initial values the first block stores -/

theorem pay2_apply (r : Fin 8192) (j : S1024x1.Idx) : k0_pay2 (F := Ideal) j = onMax feat lab r 0 := by
  unfold k0_pay2
  exact (congrFun (shapeCast_self _ _) j).trans rfl
theorem pay3_apply (r : Fin 8192) (j : S1024x1.Idx) : k0_pay3 (F := Ideal) j = onSum feat lab r 0 := by
  unfold k0_pay3
  exact (congrFun (shapeCast_self _ _) j).trans rfl
theorem pay4_apply (r : Fin 8192) (j : S1024x1.Idx) : k0_pay4 (F := Ideal) j = onPosLogit feat lab r 0 := by
  unfold k0_pay4
  exact (congrFun (shapeCast_self _ _) j).trans rfl
theorem pay5_apply (r : Fin 8192) (j : S1024x1.Idx) : k0_pay5 (F := Ideal) j = onPosCount lab r 0 := by
  unfold k0_pay5
  exact (congrFun (shapeCast_self _ _) j).trans rfl

/-- Storing through an identity shape cast changes nothing. -/
theorem pay11_eq (v37 : FVec Ideal S1024x1024 .f32) (mold : Vec Ideal S1024x1 .f32) :
    k0_pay11 (F := Ideal) v37 mold = k0_pay9 (F := Ideal) v37 mold := by
  unfold k0_pay11
  dsimp only
  exact shapeCast_self _ _

end Cert.SupCon.Body

end
-- ==== Proof.Blocks.lean ====
/-
  What the body's loads see at a grid point.

  The grid has 8 x 8 points; point t works on anchor-row block t / 8 and contrast-column block t mod 8.  An input
  window's block at a point is a rectangle of its array: entry y of the block is the array's entry at
  (block index) * (block size) + y on each axis.  Read at coordinates, the five input blocks at point t are rows
  (t / 8) * 1024 + p of the anchor, square-norm and row-label arrays and columns (t mod 8) * 1024 + q of the
  transposed-contrast and column-label arrays.
-/
import proofs.«155762_j61460982005779_1_alg».proof.Proof.Gen.KernelIdeal.Frame
import proofs.«155762_j61460982005779_1_alg».proof.Proof.Spec
import Idealize.ShloMosaic.Lib.Pipeline.Value
import Idealize.ShloMosaic.Lib.ValueIdx

noncomputable section

namespace Cert.SupCon.Blocks

open Idealize.ShloMosaic Idealize.ShloMosaic.TcCoe Idealize.ShloMosaic.ValueIdx Idealize.SL.Sem
open Cert.KernelIdeal Cert.KernelIdeal.Gen Cert.SupCon

variable {F : FTy → Type} [FloatOps F]
variable (m : (ℓ : Loc nD τ sig) → Buf (Elt F) ℓ) (c : Dev nD)

/-- The anchor row that row p of the block at grid position n is. -/
def rowAt (n : ℕ) (p : Fin 1024) : Fin 8192 :=
  ⟨n / 8 % 8 * 1024 + p.val, by have := p.isLt; have := Nat.mod_lt (n / 8) (show 0 < 8 by norm_num); omega⟩

/-- The block indices of every window, and the grid coordinates, at every point: decided once over the 64 points. -/
theorem point_facts : ∀ t : Fin grid0.N,
    win0_0.index t 0 = t.val / 8 ∧ win0_0.index t 1 = 0 ∧ win0_1.index t 0 = 0 ∧ win0_1.index t 1 = t.val % 8
    ∧ win0_2.index t 0 = t.val / 8 ∧ win0_2.index t 1 = 0 ∧ win0_3.index t 0 = t.val / 8 ∧ win0_3.index t 1 = 0
    ∧ win0_4.index t 0 = 0 ∧ win0_4.index t 1 = t.val % 8 ∧ win0_5.index t 0 = t.val / 8 ∧ win0_5.index t 1 = 0
    ∧ ((grid0.coords t) 0).val = t.val / 8 ∧ ((grid0.coords t) 1).val = t.val % 8 := by decide +kernel

theorem lt64 (t : Fin cfg0.N) : t.val < 64 := lt_of_lt_of_eq t.isLt (show cfg0.N = 64 from N_0)

/-- The anchor block at point t, entry (p, k): anchor row (t / 8) * 1024 + p, feature k. -/
theorem anchor_block (t : Fin cfg0.N) (p : Fin 1024) (k : Fin 256) :
    (iblk m c 0 t : Vec F S1024x256 .bf16) (ix2 p k) = V m c main_v8 (ix2 (rowAt t.val p) k) := by
  have ht := lt64 t
  unfold iblk
  rw [View.read_apply]
  show V m c main_v8 _ = V m c main_v8 _
  congr 1
  funext a
  apply Fin.ext
  match a with
  | ⟨0, _⟩ =>
    show win0_0.index t 0 * 1024 + 1 * p.val = t.val / 8 % 8 * 1024 + p.val
    rw [(point_facts t).1]; omega
  | ⟨1, _⟩ =>
    show win0_0.index t 1 * 256 + 1 * k.val = k.val
    rw [(point_facts t).2.1]; omega

/-- The transposed-contrast block at point t, entry (k, q): feature k of anchor (t mod 8) * 1024 + q. -/
theorem contrast_block (t : Fin cfg0.N) (k : Fin 256) (q : Fin 1024) :
    (iblk m c 1 t : Vec F S256x1024 .bf16) (ix2 k q) = V m c main_v10 (ix2 k (colOf (t.val % 8) q)) := by
  unfold iblk
  rw [View.read_apply]
  show V m c main_v10 _ = V m c main_v10 _
  congr 1
  funext a
  apply Fin.ext
  match a with
  | ⟨0, _⟩ =>
    show win0_1.index t 0 * 256 + 1 * k.val = k.val
    rw [(point_facts t).2.2.1]; omega
  | ⟨1, _⟩ =>
    show win0_1.index t 1 * 1024 + 1 * q.val = t.val % 8 % 8 * 1024 + q.val
    rw [(point_facts t).2.2.2.1]; omega

/-- The square-norm block at point t, entry (p, 0). -/
theorem sq_block (t : Fin cfg0.N) (p : Fin 1024) :
    (iblk m c 2 t : Vec F S1024x1 .f32) (ix2 p (0 : Fin 1)) = V m c main_v7 (ix2 (rowAt t.val p) (0 : Fin 1)) := by
  have ht := lt64 t
  unfold iblk
  rw [View.read_apply]
  show V m c main_v7 _ = V m c main_v7 _
  congr 1
  funext a
  apply Fin.ext
  match a with
  | ⟨0, _⟩ =>
    show win0_2.index t 0 * 1024 + 1 * p.val = t.val / 8 % 8 * 1024 + p.val
    rw [(point_facts t).2.2.2.2.1]; omega
  | ⟨1, _⟩ =>
    show win0_2.index t 1 * 1 + 1 * 0 = 0
    rw [(point_facts t).2.2.2.2.2.1]

/-- The row-label block at point t, entry (p, 0). -/
theorem labrow_block (t : Fin cfg0.N) (p : Fin 1024) :
    (iblk m c 3 t : Vec F S1024x1 .i32) (ix2 p (0 : Fin 1)) = V m c main_v11 (ix2 (rowAt t.val p) (0 : Fin 1)) := by
  have ht := lt64 t
  unfold iblk
  rw [View.read_apply]
  show V m c main_v11 _ = V m c main_v11 _
  congr 1
  funext a
  apply Fin.ext
  match a with
  | ⟨0, _⟩ =>
    show win0_3.index t 0 * 1024 + 1 * p.val = t.val / 8 % 8 * 1024 + p.val
    rw [(point_facts t).2.2.2.2.2.2.1]; omega
  | ⟨1, _⟩ =>
    show win0_3.index t 1 * 1 + 1 * 0 = 0
    rw [(point_facts t).2.2.2.2.2.2.2.1]

/-- The column-label block at point t, entry (0, q). -/
theorem labcol_block (t : Fin cfg0.N) (q : Fin 1024) :
    (iblk m c 4 t : Vec F S1x1024 .i32) (ix2 (0 : Fin 1) q) = V m c main_v12 (ix2 (0 : Fin 1) (colOf (t.val % 8) q)) := by
  unfold iblk
  rw [View.read_apply]
  show V m c main_v12 _ = V m c main_v12 _
  congr 1
  funext a
  apply Fin.ext
  match a with
  | ⟨0, _⟩ =>
    show win0_4.index t 0 * 1 + 1 * 0 = 0
    rw [(point_facts t).2.2.2.2.2.2.2.2.1]
  | ⟨1, _⟩ =>
    show win0_4.index t 1 * 1024 + 1 * q.val = t.val % 8 % 8 * 1024 + q.val
    rw [(point_facts t).2.2.2.2.2.2.2.2.2.1]; omega

end Cert.SupCon.Blocks

end
-- ==== Proof.HostBefore.lean ====
/-
  The kernel program's host operations before its one region, read at an index: what the region finds in each of its
  five input arrays, as the specification's functions of the two argument arrays.

  The program lays the features [4096, 2, 256] out view-major as [8192, 256] (a transpose of the first two axes, then a
  reshape), repeats the labels once per view ([4096] -> [1, 4096] -> [2, 4096] -> [8192]), and passes the region
    * the anchors [8192, 256] and their transpose [256, 8192] (a change of float format is the identity here),
    * the rows' sums of squares as a column [8192, 1] (a sum from the word 0, which is the real 0),
    * the labels as a column [8192, 1] and as a row [1, 8192].
  Each layout operation reads its operand at ONE index; the index arithmetic is row r = view * 4096 + sample.
-/
import proofs.«155762_j61460982005779_1_alg».proof.Proof.Gen.KernelIdeal.Frame
import proofs.«155762_j61460982005779_1_alg».proof.Proof.Spec
import Idealize.ShloMosaic.Lib.Pipeline.Value
import Idealize.ShloMosaic.Lib.ValueIdx
import Idealize.ShloMosaic.PureOps.Ideal.Laws

noncomputable section

open scoped BigOperators

namespace Cert.SupCon.Host

open Idealize.ShloMosaic Idealize.ShloMosaic.TcCoe Idealize.SL.Sem Idealize.ShloMosaic.StableHlo
open Cert.KernelIdeal Cert.KernelIdeal.Gen Cert.SupCon Idealize.ShloMosaic.ValueIdx

/-! ## The stages, as functions of the two argument arrays -/

section Stages

variable (x0 : (⟨S4096x2x256, .f32⟩ : BufTy).Contents (Elt Ideal)) (x1 : (⟨S4096, .i32⟩ : BufTy).Contents (Elt Ideal))

/-- The features with the first two axes exchanged: [2, 4096, 256]. -/
def featT : (⟨S2x4096x256, .f32⟩ : BufTy).Contents (Elt Ideal) :=
  transpose S2x4096x256 [1, 0, 2] x0 transposes_S4096x2x256_S2x4096x256_1_0_2
/-- The anchors: [8192, 256], view-major. -/
def anchors : (⟨S8192x256, .f32⟩ : BufTy).Contents (Elt Ideal) :=
  shapeCast _ (featT x0) shapeCasts_S2x4096x256_S8192x256
/-- The labels as one row [1, 4096]. -/
def lab1 : (⟨S1x4096, .i32⟩ : BufTy).Contents (Elt Ideal) := shapeCast _ x1 shapeCasts_S4096_S1x4096
/-- The row repeated per view: [2, 4096]. -/
def lab2 : (⟨S2x4096, .i32⟩ : BufTy).Contents (Elt Ideal) :=
  broadcastInDim S2x4096 ![0, 1] bcast_S1x4096_S2x4096_0_1 (lab1 x1)
/-- The anchors' labels: [8192]. -/
def labs : (⟨S8192, .i32⟩ : BufTy).Contents (Elt Ideal) := shapeCast _ (lab2 x1) shapeCasts_S2x4096_S8192
/-- The anchors' squares, entry by entry. -/
def squares : (⟨S8192x256, .f32⟩ : BufTy).Contents (Elt Ideal) := mulf (F := Ideal) (s := S8192x256) (φ := .f32) (anchors x0) (anchors x0)
/-- The rows' sums of squares: [8192]. -/
def rowSq : (⟨S8192, .f32⟩ : BufTy).Contents (Elt Ideal) :=
  Host.reduceAdd (squares x0) (constant (F := Ideal) S_ .f32 0x00000000#32) reducesTo_S8192x256_S8192_d1 h_S_

/-- An anchor's entry is the feature of its sample in its view: row r is (view r / 4096, sample r mod 4096). -/
theorem anchors_apply (r : Fin 8192) (k : Fin 256) : anchors x0 (ix2 r k) = contrast x0 r k := by
  unfold anchors
  refine (shapeCast_apply (featT x0) shapeCasts_S2x4096x256_S8192x256 (ix2 r k) (ix3 (viewOf r) (sampleOf r) k) ?_).trans ?_
  · rewrite [Shape.rowMajor_val_three, Shape.rowMajor_val_two]
    have hr : r.val < 8192 := r.isLt
    show (r.val / 4096 * 4096 + r.val % 4096) * 256 + k.val = r.val * 256 + k.val
    omega
  · unfold featT contrast
    exact transpose_apply [1, 0, 2] x0 transposes_S4096x2x256_S2x4096x256_1_0_2 (ix3 (viewOf r) (sampleOf r) k)
      (ix3 (sampleOf r) (viewOf r) k) (fun b => match b with
        | ⟨0, _⟩ => rfl
        | ⟨1, _⟩ => rfl
        | ⟨2, _⟩ => rfl)

/-- An anchor's label is its sample's. -/
theorem labs_apply (r : Fin 8192) : labs x1 (ix1 r) = labelOf x1 r := by
  unfold labs
  refine (shapeCast_apply (lab2 x1) shapeCasts_S2x4096_S8192 (ix1 r) (ix2 (viewOf r) (sampleOf r)) ?_).trans ?_
  · rewrite [Shape.rowMajor_val_two, Shape.rowMajor_val_one]
    have hr : r.val < 8192 := r.isLt
    show r.val / 4096 * 4096 + r.val % 4096 = r.val
    omega
  unfold lab2
  refine (broadcastInDim_apply _ bcast_S1x4096_S2x4096_0_1 (lab1 x1) (ix2 (viewOf r) (sampleOf r))
    (ix2 (0 : Fin 1) (sampleOf r)) (fun a => match a with
      | ⟨0, _⟩ => by show 0 = if (1 : Nat) = 1 then 0 else (viewOf r).val; rw [if_pos rfl]
      | ⟨1, _⟩ => by show (sampleOf r).val = if (4096 : Nat) = 1 then 0 else (sampleOf r).val; rw [if_neg (by decide)])).trans ?_
  unfold lab1 labelOf
  exact shapeCast_apply x1 shapeCasts_S4096_S1x4096 (ix2 (0 : Fin 1) (sampleOf r)) (ix1 (sampleOf r))
    (by rewrite [Shape.rowMajor_val_one, Shape.rowMajor_val_two]
        show (sampleOf r).val = 0 * 4096 + (sampleOf r).val
        omega)

/-- A row's sum of squares is the anchor's squared norm: the sum starts from the word 0, the real 0. -/
theorem rowSq_apply (r : Fin 8192) : rowSq x0 (ix1 r) = sqNorm x0 r := by
  unfold rowSq sqNorm
  have e : ∀ k : Fin 256, squares x0 (ix2 r k) = contrast x0 r k * contrast x0 r k := fun k => by
    show anchors x0 (ix2 r k) * anchors x0 (ix2 r k) = _
    rw [anchors_apply]
  generalize squares x0 = y0 at e
  simp only [Host.reduceAdd, Ideal.hostReduceAdd_def]
  rw [Ideal.hostReduceAdd_single reducesTo_S8192x256_S8192_d1 (by decide)]
  show Ideal.ofBits .f32 0x00000000#32 + _ = _
  rw [Ideal.ofBits_zero_f32, zero_add]
  refine Finset.sum_congr rfl fun k _ => ?_
  refine Eq.trans (congrArg y0 (funext fun a => Fin.ext (by match a with | ⟨0, _⟩ => rfl | ⟨1, _⟩ => rfl))) (e k)

end Stages

/-! ## The region's input arrays -/

variable (m : (ℓ : Loc nD τ sig) → Buf (Elt Ideal) ℓ) (c : Dev nD)

/-- The feature argument, as the specification's array. -/
abbrev featOf : SFeat.Idx → EReal := m ((c : Thread nD τ).loc main_arg0)
/-- The label argument, as the specification's array. -/
abbrev labOf : SLab.Idx → BitVec 32 := m ((c : Thread nD τ).loc main_arg1)

/-- Window 0's array is the anchors (the change of float format is the identity). -/
theorem V_v8_eq : (V m c main_v8 : (⟨S8192x256, .bf16⟩ : BufTy).Contents (Elt Ideal))
    = truncf (F := Ideal) (s := S8192x256) (φ := .f32) .bf16 (anchors (featOf m c)) bitsLt_bf16_f32 := by
  show StableHlo.after hostOps0 (fun b => m (c, b)) (Proc.devRef .tc main_v8) = _
  after_results
  rfl

/-- Window 1's array is the anchors transposed. -/
theorem V_v10_eq : (V m c main_v10 : (⟨S256x8192, .bf16⟩ : BufTy).Contents (Elt Ideal))
    = truncf (F := Ideal) (s := S256x8192) (φ := .f32) .bf16 (transpose S256x8192 [1, 0] (anchors (featOf m c)) transposes_S8192x256_S256x8192_1_0) bitsLt_bf16_f32 := by
  show StableHlo.after hostOps0 (fun b => m (c, b)) (Proc.devRef .tc main_v10) = _
  after_results
  rfl

/-- Window 2's array is the rows' sums of squares as a column. -/
theorem V_v7_eq : (V m c main_v7 : (⟨S8192x1, .f32⟩ : BufTy).Contents (Elt Ideal))
    = broadcastInDim S8192x1 ![0] bcast_S8192_S8192x1_0 (rowSq (featOf m c)) := by
  show StableHlo.after hostOps0 (fun b => m (c, b)) (Proc.devRef .tc main_v7) = _
  after_results
  rfl

/-- Window 3's array is the anchors' labels as a column. -/
theorem V_v11_eq : (V m c main_v11 : (⟨S8192x1, .i32⟩ : BufTy).Contents (Elt Ideal))
    = shapeCast _ (labs (labOf m c)) shapeCasts_S8192_S8192x1 := by
  show StableHlo.after hostOps0 (fun b => m (c, b)) (Proc.devRef .tc main_v11) = _
  after_results
  rfl

/-- Window 4's array is the anchors' labels as a row. -/
theorem V_v12_eq : (V m c main_v12 : (⟨S1x8192, .i32⟩ : BufTy).Contents (Elt Ideal))
    = shapeCast _ (labs (labOf m c)) shapeCasts_S8192_S1x8192 := by
  show StableHlo.after hostOps0 (fun b => m (c, b)) (Proc.devRef .tc main_v12) = _
  after_results
  rfl

/-- The anchors' array at (r, k) is anchor r's feature k. -/
theorem V_anchor (r : Fin 8192) (k : Fin 256) :
    (V m c main_v8 : (⟨S8192x256, .bf16⟩ : BufTy).Contents (Elt Ideal)) (ix2 r k) = contrast (featOf m c) r k := by
  rw [V_v8_eq]
  exact anchors_apply (featOf m c) r k

/-- The transposed array at (k, r) is anchor r's feature k. -/
theorem V_contrastT (k : Fin 256) (r : Fin 8192) :
    (V m c main_v10 : (⟨S256x8192, .bf16⟩ : BufTy).Contents (Elt Ideal)) (ix2 k r) = contrast (featOf m c) r k := by
  rw [V_v10_eq]
  refine Eq.trans ?_ (anchors_apply (featOf m c) r k)
  show transpose S256x8192 [1, 0] (anchors (featOf m c)) transposes_S8192x256_S256x8192_1_0 (ix2 k r) = _
  generalize anchors (featOf m c) = y
  exact transpose_apply [1, 0] y transposes_S8192x256_S256x8192_1_0 (ix2 k r) (ix2 r k) (fun b => match b with
    | ⟨0, _⟩ => rfl
    | ⟨1, _⟩ => rfl)

/-- The sums-of-squares column at (r, 0) is anchor r's squared norm. -/
theorem V_sq (r : Fin 8192) (z : Fin 1) :
    (V m c main_v7 : (⟨S8192x1, .f32⟩ : BufTy).Contents (Elt Ideal)) (ix2 r z) = sqNorm (featOf m c) r := by
  rw [V_v7_eq]
  refine Eq.trans ?_ (rowSq_apply (featOf m c) r)
  generalize rowSq (featOf m c) = y
  exact broadcastInDim_apply _ bcast_S8192_S8192x1_0 y (ix2 r z) (ix1 r) (fun a => match a with
    | ⟨0, _⟩ => by show r.val = if (8192 : Nat) = 1 then 0 else r.val; rw [if_neg (by decide)])

/-- The label column at (r, 0) is anchor r's label. -/
theorem V_labrow (r : Fin 8192) (z : Fin 1) :
    (V m c main_v11 : (⟨S8192x1, .i32⟩ : BufTy).Contents (Elt Ideal)) (ix2 r z) = labelOf (labOf m c) r := by
  rw [V_v11_eq]
  refine Eq.trans ?_ (labs_apply (labOf m c) r)
  generalize labs (labOf m c) = y
  exact shapeCast_apply y shapeCasts_S8192_S8192x1 (ix2 r z) (ix1 r)
    (by rewrite [Shape.rowMajor_val_one, Shape.rowMajor_val_two]
        have hz : z.val < 1 := z.isLt
        show r.val = r.val * 1 + z.val
        omega)

/-- The label row at (0, r) is anchor r's label. -/
theorem V_labcol (z : Fin 1) (r : Fin 8192) :
    (V m c main_v12 : (⟨S1x8192, .i32⟩ : BufTy).Contents (Elt Ideal)) (ix2 z r) = labelOf (labOf m c) r := by
  rw [V_v12_eq]
  refine Eq.trans ?_ (labs_apply (labOf m c) r)
  generalize labs (labOf m c) = y
  exact shapeCast_apply y shapeCasts_S8192_S1x8192 (ix2 z r) (ix1 r)
    (by rewrite [Shape.rowMajor_val_one, Shape.rowMajor_val_two]
        have hz : z.val < 1 := z.isLt
        show r.val = z.val * 8192 + r.val
        omega)

end Cert.SupCon.Host

end
-- ==== Proof.Grid.lean ====
/-
  The four running values, point by point, and the loss the last column block writes.

  Point t = 8 * i + j of the grid works on anchor-row block i and column block j.  The body keeps four columns of
  running values in scratch, carried from point to point within a row block: at j = 0 it first stores the initial
  values, at every point it advances each by the current column block, and at j = 7 it also writes the rows' losses.
  By induction on the point, after point t the four scratch columns hold, at row p, the specification's running
  maximum, exponential sum, positives' logit sum and positives' count after j + 1 blocks of anchor row i * 1024 + p;
  hence the block written at j = 7 holds that row's loss.
-/
import proofs.«155762_j61460982005779_1_alg».proof.Proof.Pieces
import proofs.«155762_j61460982005779_1_alg».proof.Proof.PayloadMasks
import proofs.«155762_j61460982005779_1_alg».proof.Proof.PayloadSteps
import proofs.«155762_j61460982005779_1_alg».proof.Proof.Blocks
import proofs.«155762_j61460982005779_1_alg».proof.Proof.HostBefore

set_option maxRecDepth 16384

noncomputable section

namespace Cert.SupCon.Grid

open Idealize.ShloMosaic Idealize.ShloMosaic.TcCoe Idealize.ShloMosaic.ValueIdx Idealize.SL.Sem
open Cert.KernelIdeal Cert.KernelIdeal.Gen Cert.SupCon Cert.SupCon.Body Cert.SupCon.Blocks Cert.SupCon.Pieces Cert.SupCon.Host

variable (m : (ℓ : Loc nD τ sig) → Buf (Elt Ideal) ℓ) (c : Dev nD)

/-! ## The block's masks and logits at a point -/

theorem row_val (t : Fin cfg0.N) (p : Fin 1024) : (rowAt t.val p).val = ((grid0.coords t) 0).val * 1024 + p.val := by
  have ht := lt64 t
  show t.val / 8 % 8 * 1024 + p.val = _
  rw [(point_facts t).2.2.2.2.2.2.2.2.2.2.2.2.1]; omega

theorem col_val (t : Fin cfg0.N) (q : Fin 1024) : (colOf (t.val % 8) q).val = ((grid0.coords t) 1).val * 1024 + q.val := by
  show t.val % 8 % 8 * 1024 + q.val = _
  rw [(point_facts t).2.2.2.2.2.2.2.2.2.2.2.2.2]; omega

/-- The off-diagonal mask the body computes at point t. -/
theorem blk_off (t : Fin cfg0.N) (p q : Fin 1024) :
    k0_pay6 (F := Ideal) (grid0.coords t) (ix2 p q) = offDiag (rowAt t.val p) (colOf (t.val % 8) q) :=
  pay6_apply (grid0.coords t) (rowAt t.val p) (colOf (t.val % 8) q) p q (row_val t p) (col_val t q)

/-- The label mask the body computes at point t. -/
theorem blk_same (t : Fin cfg0.N) (p q : Fin 1024) :
    k0_pay7 (F := Ideal) (iblk m c 3 t) (iblk m c 4 t) (ix2 p q) = same (labOf m c) (rowAt t.val p) (colOf (t.val % 8) q) :=
  pay7_apply (labOf m c) (iblk m c 3 t) (iblk m c 4 t) (rowAt t.val p) (colOf (t.val % 8) q) p q
    ((labrow_block m c t p).trans (V_labrow m c _ 0)) ((labcol_block m c t q).trans (V_labcol m c 0 _))

/-- The logits the body computes at point t. -/
theorem blk_logit (t : Fin cfg0.N) (p q : Fin 1024) :
    k0_pay8 (F := Ideal) (iblk m c 0 t) (iblk m c 1 t) (iblk m c 3 t) (iblk m c 4 t) (iblk m c 2 t) (ix2 p q)
      = logit (featOf m c) (labOf m c) (rowAt t.val p) (colOf (t.val % 8) q) :=
  pay8_apply (featOf m c) (labOf m c) (iblk m c 0 t) (iblk m c 1 t) (iblk m c 3 t) (iblk m c 4 t) (iblk m c 2 t)
    (rowAt t.val p) (colOf (t.val % 8) q) p q
    (fun k => (anchor_block m c t p k).trans (V_anchor m c _ k)) (fun k => (contrast_block m c t k q).trans (V_contrastT m c k _))
    ((labrow_block m c t p).trans (V_labrow m c _ 0)) ((labcol_block m c t q).trans (V_labcol m c 0 _))
    ((sq_block m c t p).trans (V_sq m c _ 0))

/-! ## One point's step -/

/-- The four values the body stores at point t, from the four it found. -/
abbrev newMax (t : Fin cfg0.N) (mo : Vec Ideal S1024x1 .f32) : Vec Ideal S1024x1 .f32 :=
  k0_pay11 (F := Ideal) (k0_pay8 (iblk m c 0 t) (iblk m c 1 t) (iblk m c 3 t) (iblk m c 4 t) (iblk m c 2 t)) mo
abbrev newSum (t : Fin cfg0.N) (mo lo : Vec Ideal S1024x1 .f32) : Vec Ideal S1024x1 .f32 :=
  k0_pay12 (F := Ideal) (k0_pay6 (grid0.coords t)) (k0_pay8 (iblk m c 0 t) (iblk m c 1 t) (iblk m c 3 t) (iblk m c 4 t) (iblk m c 2 t)) mo lo
abbrev newPosLogit (t : Fin cfg0.N) (so : Vec Ideal S1024x1 .f32) : Vec Ideal S1024x1 .f32 :=
  k0_pay13 (F := Ideal) (k0_pay6 (grid0.coords t)) (k0_pay7 (iblk m c 3 t) (iblk m c 4 t))
    (k0_pay8 (iblk m c 0 t) (iblk m c 1 t) (iblk m c 3 t) (iblk m c 4 t) (iblk m c 2 t)) so
abbrev newPosCount (t : Fin cfg0.N) (so : Vec Ideal S1024x1 .f32) : Vec Ideal S1024x1 .f32 :=
  k0_pay14 (F := Ideal) (k0_pay6 (grid0.coords t)) (k0_pay7 (iblk m c 3 t) (iblk m c 4 t)) so

/-- If the scratch holds the running values after j blocks of the point's rows, the body leaves those after j + 1. -/
theorem step (t : Fin cfg0.N) (j : ℕ) (hj : t.val % 8 = j) (p : Fin 1024) (mo lo s1o s0o : Vec Ideal S1024x1 .f32)
    (hm : mo (ix2 p (0 : Fin 1)) = onMax (featOf m c) (labOf m c) (rowAt t.val p) j)
    (hl : lo (ix2 p (0 : Fin 1)) = onSum (featOf m c) (labOf m c) (rowAt t.val p) j)
    (h1 : s1o (ix2 p (0 : Fin 1)) = onPosLogit (featOf m c) (labOf m c) (rowAt t.val p) j)
    (h0 : s0o (ix2 p (0 : Fin 1)) = onPosCount (labOf m c) (rowAt t.val p) j) :
    newMax m c t mo (ix2 p (0 : Fin 1)) = onMax (featOf m c) (labOf m c) (rowAt t.val p) (j + 1)
    ∧ newSum m c t mo lo (ix2 p (0 : Fin 1)) = onSum (featOf m c) (labOf m c) (rowAt t.val p) (j + 1)
    ∧ newPosLogit m c t s1o (ix2 p (0 : Fin 1)) = onPosLogit (featOf m c) (labOf m c) (rowAt t.val p) (j + 1)
    ∧ newPosCount m c t s0o (ix2 p (0 : Fin 1)) = onPosCount (labOf m c) (rowAt t.val p) (j + 1) := by
  subst hj
  have hv : ∀ q : Fin 1024, k0_pay8 (F := Ideal) (iblk m c 0 t) (iblk m c 1 t) (iblk m c 3 t) (iblk m c 4 t) (iblk m c 2 t) (ix2 p q)
      = logit (featOf m c) (labOf m c) (rowAt t.val p) (colOf (t.val % 8) q) := fun q => blk_logit m c t p q
  have ho : ∀ q : Fin 1024, k0_pay6 (F := Ideal) (grid0.coords t) (ix2 p q) = offDiag (rowAt t.val p) (colOf (t.val % 8) q) :=
    fun q => blk_off t p q
  have hs : ∀ q : Fin 1024, k0_pay7 (F := Ideal) (iblk m c 3 t) (iblk m c 4 t) (ix2 p q)
      = same (labOf m c) (rowAt t.val p) (colOf (t.val % 8) q) := fun q => blk_same m c t p q
  refine ⟨?_, ?_, ?_, ?_⟩
  · exact (congrFun (pay11_eq (k0_pay8 (iblk m c 0 t) (iblk m c 1 t) (iblk m c 3 t) (iblk m c 4 t) (iblk m c 2 t)) mo) (ix2 p (0 : Fin 1))).trans
      (pay9_apply (featOf m c) (labOf m c) (k0_pay8 (iblk m c 0 t) (iblk m c 1 t) (iblk m c 3 t) (iblk m c 4 t) (iblk m c 2 t)) mo
        (rowAt t.val p) (t.val % 8) p hv hm)
  · exact pay12_apply (featOf m c) (labOf m c) (k0_pay6 (grid0.coords t))
      (k0_pay8 (iblk m c 0 t) (iblk m c 1 t) (iblk m c 3 t) (iblk m c 4 t) (iblk m c 2 t)) mo lo (rowAt t.val p) (t.val % 8) p hv ho hm hl
  · exact pay13_apply (featOf m c) (labOf m c) (k0_pay6 (grid0.coords t)) (k0_pay7 (iblk m c 3 t) (iblk m c 4 t))
      (k0_pay8 (iblk m c 0 t) (iblk m c 1 t) (iblk m c 3 t) (iblk m c 4 t) (iblk m c 2 t)) s1o (rowAt t.val p) (t.val % 8) p hv ho hs h1
  · exact pay14_apply (labOf m c) (k0_pay6 (grid0.coords t)) (k0_pay7 (iblk m c 3 t) (iblk m c 4 t)) s0o (rowAt t.val p) (t.val % 8) p ho hs h0

/-! ## What each case leaves, as one point's step -/

/-- What the point before left. -/
abbrev prev (t : Fin cfg0.N) := outsAt0 m c (t.val - 1) (Nat.lt_of_le_of_lt (Nat.sub_le _ _) t.isLt)

/-- A tuple that is the first case's tuple of found pieces has, as its scratch components, one step from the initial values. -/
theorem first_aux (t : Fin cfg0.N) (hc0 : cond0_0 (grid0.coords t)) (hc1 : ¬cond0_1 (grid0.coords t)) (X : (Vec Ideal S1024x1 .f32 × Vec Ideal S1024x1 .f32 × Vec Ideal S1024x1 .f32 × Vec Ideal S1024x1 .f32 × Vec Ideal S1024x1 .f32))
    (e : X = (out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (iblk m c 4 t), sout0_A_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (iblk m c 4 t), sout0_A_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (iblk m c 4 t), sout0_A_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (iblk m c 4 t), sout0_A_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (iblk m c 4 t))) :
    X.2.1 = newMax m c t (k0_pay2 (F := Ideal))
    ∧ X.2.2.1 = newSum m c t (k0_pay2 (F := Ideal)) (k0_pay3 (F := Ideal))
    ∧ X.2.2.2.1 = newPosLogit m c t (k0_pay4 (F := Ideal))
    ∧ X.2.2.2.2 = newPosCount m c t (k0_pay5 (F := Ideal)) := by
  subst e
  dsimp only
  exact ⟨piece_A_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (iblk m c 4 t), piece_A_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (iblk m c 4 t),
    piece_A_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (iblk m c 4 t), piece_A_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (iblk m c 4 t)⟩

/-- A tuple that is the middle case's tuple of found pieces over what P held: one step from P's scratch components. -/
theorem mid_aux (t : Fin cfg0.N) (hc0 : ¬cond0_0 (grid0.coords t)) (hc1 : ¬cond0_1 (grid0.coords t)) (X P : (Vec Ideal S1024x1 .f32 × Vec Ideal S1024x1 .f32 × Vec Ideal S1024x1 .f32 × Vec Ideal S1024x1 .f32 × Vec Ideal S1024x1 .f32))
    (e : X = (out0_B_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (iblk m c 4 t) P.2.1 P.2.2.1 P.2.2.2.1 P.2.2.2.2, sout0_B_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (iblk m c 4 t) P.2.1 P.2.2.1 P.2.2.2.1 P.2.2.2.2, sout0_B_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (iblk m c 4 t) P.2.1 P.2.2.1 P.2.2.2.1 P.2.2.2.2, sout0_B_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (iblk m c 4 t) P.2.1 P.2.2.1 P.2.2.2.1 P.2.2.2.2, sout0_B_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (iblk m c 4 t) P.2.1 P.2.2.1 P.2.2.2.1 P.2.2.2.2)) :
    X.2.1 = newMax m c t P.2.1
    ∧ X.2.2.1 = newSum m c t P.2.1 P.2.2.1
    ∧ X.2.2.2.1 = newPosLogit m c t P.2.2.2.1
    ∧ X.2.2.2.2 = newPosCount m c t P.2.2.2.2 := by
  subst e
  dsimp only
  exact ⟨piece_B_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (iblk m c 4 t) P.2.1 P.2.2.1 P.2.2.2.1 P.2.2.2.2, piece_B_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (iblk m c 4 t) P.2.1 P.2.2.1 P.2.2.2.1 P.2.2.2.2,
    piece_B_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (iblk m c 4 t) P.2.1 P.2.2.1 P.2.2.2.1 P.2.2.2.2, piece_B_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (iblk m c 4 t) P.2.1 P.2.2.1 P.2.2.2.1 P.2.2.2.2⟩

/-- The same for the last case, whose output component is the loss payload of the four stepped values. -/
theorem last_aux (t : Fin cfg0.N) (hc0 : ¬cond0_0 (grid0.coords t)) (hc1 : cond0_1 (grid0.coords t)) (X P : (Vec Ideal S1024x1 .f32 × Vec Ideal S1024x1 .f32 × Vec Ideal S1024x1 .f32 × Vec Ideal S1024x1 .f32 × Vec Ideal S1024x1 .f32))
    (e : X = (out0_C_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (iblk m c 4 t) P.2.1 P.2.2.1 P.2.2.2.1 P.2.2.2.2, sout0_C_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (iblk m c 4 t) P.2.1 P.2.2.1 P.2.2.2.1 P.2.2.2.2, sout0_C_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (iblk m c 4 t) P.2.1 P.2.2.1 P.2.2.2.1 P.2.2.2.2, sout0_C_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (iblk m c 4 t) P.2.1 P.2.2.1 P.2.2.2.1 P.2.2.2.2, sout0_C_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (iblk m c 4 t) P.2.1 P.2.2.1 P.2.2.2.1 P.2.2.2.2)) :
    X.2.1 = newMax m c t P.2.1
    ∧ X.2.2.1 = newSum m c t P.2.1 P.2.2.1
    ∧ X.2.2.2.1 = newPosLogit m c t P.2.2.2.1
    ∧ X.2.2.2.2 = newPosCount m c t P.2.2.2.2
    ∧ X.1 = k0_pay1 (F := Ideal) (newPosLogit m c t P.2.2.2.1) (newPosCount m c t P.2.2.2.2) (newMax m c t P.2.1) (newSum m c t P.2.1 P.2.2.1) := by
  subst e
  dsimp only
  exact ⟨piece_C_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (iblk m c 4 t) P.2.1 P.2.2.1 P.2.2.2.1 P.2.2.2.2, piece_C_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (iblk m c 4 t) P.2.1 P.2.2.1 P.2.2.2.1 P.2.2.2.2,
    piece_C_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (iblk m c 4 t) P.2.1 P.2.2.1 P.2.2.2.1 P.2.2.2.2, piece_C_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (iblk m c 4 t) P.2.1 P.2.2.1 P.2.2.2.1 P.2.2.2.2,
    piece_C_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) hc0 hc1 (iblk m c 0 t) (iblk m c 1 t) (iblk m c 2 t) (iblk m c 3 t) (iblk m c 4 t) P.2.1 P.2.2.1 P.2.2.2.1 P.2.2.2.2⟩

theorem after_first (t : Fin cfg0.N) (h0 : t.val % 8 = 0) (h1 : ¬t.val % 8 = 7) :
    (outsAt0 m c t.val t.isLt).2.1 = newMax m c t (k0_pay2 (F := Ideal))
    ∧ (outsAt0 m c t.val t.isLt).2.2.1 = newSum m c t (k0_pay2 (F := Ideal)) (k0_pay3 (F := Ideal))
    ∧ (outsAt0 m c t.val t.isLt).2.2.2.1 = newPosLogit m c t (k0_pay4 (F := Ideal))
    ∧ (outsAt0 m c t.val t.isLt).2.2.2.2 = newPosCount m c t (k0_pay5 (F := Ideal)) :=
  first_aux m c t ((hcond0_0 t).mpr h0) (fun h => h1 ((hcond0_1 t).mp h)) (outsAt0 m c t.val t.isLt) (outsAt0_A m c t h0 h1)

theorem after_mid (t : Fin cfg0.N) (h0 : ¬t.val % 8 = 0) (h1 : ¬t.val % 8 = 7) :
    (outsAt0 m c t.val t.isLt).2.1 = newMax m c t (prev m c t).2.1
    ∧ (outsAt0 m c t.val t.isLt).2.2.1 = newSum m c t (prev m c t).2.1 (prev m c t).2.2.1
    ∧ (outsAt0 m c t.val t.isLt).2.2.2.1 = newPosLogit m c t (prev m c t).2.2.2.1
    ∧ (outsAt0 m c t.val t.isLt).2.2.2.2 = newPosCount m c t (prev m c t).2.2.2.2 :=
  mid_aux m c t (fun h => h0 ((hcond0_0 t).mp h)) (fun h => h1 ((hcond0_1 t).mp h)) (outsAt0 m c t.val t.isLt) (prev m c t) (outsAt0_B m c t h0 h1)

theorem after_last (t : Fin cfg0.N) (h0 : ¬t.val % 8 = 0) (h1 : t.val % 8 = 7) :
    (outsAt0 m c t.val t.isLt).2.1 = newMax m c t (prev m c t).2.1
    ∧ (outsAt0 m c t.val t.isLt).2.2.1 = newSum m c t (prev m c t).2.1 (prev m c t).2.2.1
    ∧ (outsAt0 m c t.val t.isLt).2.2.2.1 = newPosLogit m c t (prev m c t).2.2.2.1
    ∧ (outsAt0 m c t.val t.isLt).2.2.2.2 = newPosCount m c t (prev m c t).2.2.2.2
    ∧ (outsAt0 m c t.val t.isLt).1 = k0_pay1 (F := Ideal) (newPosLogit m c t (prev m c t).2.2.2.1) (newPosCount m c t (prev m c t).2.2.2.2)
        (newMax m c t (prev m c t).2.1) (newSum m c t (prev m c t).2.1 (prev m c t).2.2.1) :=
  last_aux m c t (fun h => h0 ((hcond0_0 t).mp h)) ((hcond0_1 t).mpr h1) (outsAt0 m c t.val t.isLt) (prev m c t) (outsAt0_C m c t h0 h1)

/-! ## The induction over the points -/

/-- After point n the four scratch columns hold the running values after n mod 8 + 1 blocks. -/
def Holds (n : ℕ) (h : n < cfg0.N) : Prop := ∀ p : Fin 1024,
  (outsAt0 m c n h).2.1 (ix2 p (0 : Fin 1)) = onMax (featOf m c) (labOf m c) (rowAt n p) (n % 8 + 1)
  ∧ (outsAt0 m c n h).2.2.1 (ix2 p (0 : Fin 1)) = onSum (featOf m c) (labOf m c) (rowAt n p) (n % 8 + 1)
  ∧ (outsAt0 m c n h).2.2.2.1 (ix2 p (0 : Fin 1)) = onPosLogit (featOf m c) (labOf m c) (rowAt n p) (n % 8 + 1)
  ∧ (outsAt0 m c n h).2.2.2.2 (ix2 p (0 : Fin 1)) = onPosCount (labOf m c) (rowAt n p) (n % 8 + 1)

/-- A point that starts a row block: the initial values, advanced by block 0. -/
theorem holds_first (t : Fin cfg0.N) (h0 : t.val % 8 = 0) : Holds m c t.val t.isLt := by
  unfold Holds
  intro p
  have h1 : ¬t.val % 8 = 7 := by omega
  obtain ⟨e0, e1, e2, e3⟩ := after_first m c t h0 h1
  rw [e0, e1, e2, e3, h0]
  exact step m c t 0 h0 p (k0_pay2 (F := Ideal)) (k0_pay3 (F := Ideal)) (k0_pay4 (F := Ideal)) (k0_pay5 (F := Ideal))
    (pay2_apply (featOf m c) (labOf m c) (rowAt t.val p) (ix2 p (0 : Fin 1))) (pay3_apply (featOf m c) (labOf m c) (rowAt t.val p) (ix2 p (0 : Fin 1)))
    (pay4_apply (featOf m c) (labOf m c) (rowAt t.val p) (ix2 p (0 : Fin 1))) (pay5_apply (labOf m c) (rowAt t.val p) (ix2 p (0 : Fin 1)))

/-- The rows stay the same from a point to the next inside a row block. -/
theorem rowAt_succ (n : ℕ) (hn : ¬(n + 1) % 8 = 0) (p : Fin 1024) : rowAt n p = rowAt (n + 1) p := by
  apply Fin.ext
  show n / 8 % 8 * 1024 + p.val = (n + 1) / 8 % 8 * 1024 + p.val
  have : (n + 1) / 8 = n / 8 := by omega
  rw [this]

theorem holds_all : ∀ (n : ℕ) (h : n < cfg0.N), Holds m c n h
  | 0, h => holds_first m c ⟨0, h⟩ rfl
  | n + 1, h => by
    by_cases h0 : (n + 1) % 8 = 0
    · exact holds_first m c ⟨n + 1, h⟩ h0
    · have ih := holds_all n (Nat.lt_of_succ_lt h)
      have hj : (⟨n + 1, h⟩ : Fin cfg0.N).val % 8 = n % 8 + 1 := by show (n + 1) % 8 = n % 8 + 1; omega
      unfold Holds
      intro p
      obtain ⟨im, il, i1, i0⟩ := ih p
      rw [rowAt_succ n h0 p] at im il i1 i0
      have st := step m c ⟨n + 1, h⟩ (n % 8 + 1) hj p (outsAt0 m c n (Nat.lt_of_succ_lt h)).2.1 (outsAt0 m c n (Nat.lt_of_succ_lt h)).2.2.1
        (outsAt0 m c n (Nat.lt_of_succ_lt h)).2.2.2.1 (outsAt0 m c n (Nat.lt_of_succ_lt h)).2.2.2.2 im il i1 i0
      rw [show (n + 1) % 8 = n % 8 + 1 from hj]
      by_cases h1 : (n + 1) % 8 = 7
      · obtain ⟨e0, e1, e2, e3, -⟩ := after_last m c ⟨n + 1, h⟩ h0 h1
        rw [e0, e1, e2, e3]
        exact st
      · obtain ⟨e0, e1, e2, e3⟩ := after_mid m c ⟨n + 1, h⟩ h0 h1
        rw [e0, e1, e2, e3]
        exact st

/-- The block of losses the last column block's point writes. -/
theorem out_last (t : Fin cfg0.N) (h7 : t.val % 8 = 7) (p : Fin 1024) :
    (outsAt0 m c t.val t.isLt).1 (ix2 p (0 : Fin 1)) = kernLoss (featOf m c) (labOf m c) (rowAt t.val p) := by
  have h0 : ¬t.val % 8 = 0 := by omega
  obtain ⟨n, hn⟩ := t
  cases n with
  | zero => exact absurd (Nat.zero_mod 8) h0
  | succ n =>
    have h0' : ¬(n + 1) % 8 = 0 := h0
    have h7' : (n + 1) % 8 = 7 := h7
    have ih := holds_all m c n (Nat.lt_of_succ_lt hn)
    have hj : (⟨n + 1, hn⟩ : Fin cfg0.N).val % 8 = n % 8 + 1 := by show (n + 1) % 8 = n % 8 + 1; omega
    have h8 : n % 8 + 1 + 1 = 8 := by omega
    obtain ⟨im, il, i1, i0⟩ := ih p
    rw [rowAt_succ n h0' p] at im il i1 i0
    obtain ⟨sm, sl, s1, s0⟩ := step m c ⟨n + 1, hn⟩ (n % 8 + 1) hj p (outsAt0 m c n (Nat.lt_of_succ_lt hn)).2.1 (outsAt0 m c n (Nat.lt_of_succ_lt hn)).2.2.1
        (outsAt0 m c n (Nat.lt_of_succ_lt hn)).2.2.2.1 (outsAt0 m c n (Nat.lt_of_succ_lt hn)).2.2.2.2 im il i1 i0
    rw [h8] at sm sl s1 s0
    obtain ⟨-, -, -, -, e5⟩ := after_last m c ⟨n + 1, hn⟩ h0 h7
    rw [e5]
    exact pay1_apply (featOf m c) (labOf m c) _ _ _ _ (rowAt (n + 1) p) p s1 s0 sm sl

end Cert.SupCon.Grid

end
-- ==== Proof.Final.lean ====
/-
  The array of losses the region leaves.

  Output blocks are written back only at the last column block of each row block (points t with t mod 8 = 7), and
  the eight blocks written tile the [8192, 1] array: row r lies in the block of point 8 * (r / 1024) + 7.  So, given
  that each writing point's block holds its rows' losses, the array ends holding, at row r, that row's loss.
-/
import proofs.«155762_j61460982005779_1_alg».proof.Proof.Gen.KernelIdeal.Frame
import proofs.«155762_j61460982005779_1_alg».proof.Proof.Blocks
import proofs.«155762_j61460982005779_1_alg».proof.Proof.HostBefore

set_option maxRecDepth 16384

noncomputable section

open scoped BigOperators

namespace Cert.SupCon.Final

open Idealize.ShloMosaic Idealize.ShloMosaic.TcCoe Idealize.ShloMosaic.ValueIdx Idealize.SL.Sem
open Idealize.ShloMosaic.Pipeline (Dat)
open Cert.KernelIdeal Cert.KernelIdeal.Gen Cert.SupCon Cert.SupCon.Blocks Cert.SupCon.Host

variable (m : (ℓ : Loc nD τ sig) → Buf (Elt Ideal) ℓ) (c : Dev nD)

/-- The rows' losses as contents of the output array. -/
def lossArr : Buf (Elt Ideal) ((c : Thread nD τ).loc main_v13) :=
  fun y : S8192x1.Idx => kernLoss (featOf m c) (labOf m c) (y 0)

/-- What the last column block of a row block leaves in the output's buffer: its rows' losses. -/
abbrev LastHolds : Prop :=
  ∀ (t : Fin cfg0.N), t.val % 8 = 7 → ∀ p : Fin 1024,
    (outsAt0 m c t.val t.isLt).1 (ix2 p (0 : Fin 1)) = kernLoss (featOf m c) (labOf m c) (rowAt t.val p)

/-- What a writing point writes back is its block of the losses. -/
theorem flushed_eq (hlast : LastHolds m c) (t : Fin cfg0.N) (hf : (cfg0.win 5).flush t = true) :
    (dats m 0 c).flushed 5 t = ((cfg0.win 5).blk t).view.read (Elt Ideal) (lossArr m c) := by
  have h7 : t.val % 8 = 7 := (flush0_5 t).mp hf
  have ht := lt64 t
  obtain ⟨-, -, -, -, -, -, -, -, -, -, e0, -, -, -⟩ := point_facts t
  show (cfg0.win 5).cut (grid0.coords t) ((dats m 0 c).after 5 t) = _
  rw [after0_5]
  funext j
  obtain ⟨p, z, rfl⟩ : ∃ (p : Fin 1024) (z : Fin 1), j = ix2 p z := ⟨j 0, j 1, eq_ix2 j⟩
  obtain rfl : z = 0 := Subsingleton.elim _ _
  show (outsAt0 m c t.val t.isLt).1 (ix2 p (0 : Fin 1)) = lossArr m c (((cfg0.win 5).blk t).view.emb (ix2 p (0 : Fin 1)))
  rw [hlast t h7 p]
  unfold lossArr
  show kernLoss _ _ (rowAt t.val p) = kernLoss _ _ ((((cfg0.win 5).blk t).view.emb (ix2 p (0 : Fin 1))) 0)
  refine congrArg (kernLoss (featOf m c) (labOf m c)) (Fin.ext ?_)
  show t.val / 8 % 8 * 1024 + p.val = win0_5.index t 0 * 1024 + 1 * p.val
  rw [e0]; omega

/-- An index of the array is in point t's block iff each coordinate is in the block's range on its axis. -/
theorem mem_blk (t : Fin cfg0.N) (i : S8192x1.Idx) :
    i ∈ ((cfg0.win 5).blk t).view.set ↔
      ∀ a : Fin 2, win0_5.index t a * S1024x1.size a ≤ (i a).val ∧ (i a).val < win0_5.index t a * S1024x1.size a + S1024x1.size a := by
  show i ∈ ((View.whole main_v13).slice (win0_5.rect t)).set ↔ _
  rw [View.set_slice_whole, Rect.mem_set_unit]
  exact Iff.rfl

/-- Every row is in the block some writing point writes. -/
theorem cover (i : S8192x1.Idx) :
    ∃ t : Fin cfg0.N, (cfg0.win 5).flush t = true ∧ i ∈ ((cfg0.win 5).blk t).view.set := by
  have hi0 : (i 0).val < 8192 := (i 0).isLt
  have hi1 : (i 1).val < 1 := (i 1).isLt
  have hN : cfg0.N = 64 := N_0
  let t : Fin cfg0.N := ⟨(i 0).val / 1024 * 8 + 7, by rw [hN]; omega⟩
  obtain ⟨-, -, -, -, -, -, -, -, -, -, q0, q1, -, -⟩ := point_facts t
  have e0 : win0_5.index t 0 = (i 0).val / 1024 := by
    rw [q0]; show ((i 0).val / 1024 * 8 + 7) / 8 = _; omega
  have e1 : win0_5.index t 1 = 0 := q1
  refine ⟨t, (flush0_5 t).mpr (by show ((i 0).val / 1024 * 8 + 7) % 8 = 7; omega), ?_⟩
  rw [mem_blk]
  intro a
  match a with
  | ⟨0, _⟩ =>
    show win0_5.index t 0 * 1024 ≤ (i 0).val ∧ (i 0).val < win0_5.index t 0 * 1024 + 1024
    rw [e0]; omega
  | ⟨1, _⟩ =>
    show win0_5.index t 1 * 1 ≤ (i 1).val ∧ (i 1).val < win0_5.index t 1 * 1 + 1
    rw [e1]; omega

/-- The output array after the region: the rows' losses. -/
theorem final_of (hlast : LastHolds m c) : (dats m 0 c).arrAt 5 cfg0.N = lossArr m c :=
  (dats m 0 c).arrAt_eq_of_cover 5 (lossArr m c) (flushed_eq m c hlast) (cover)

end Cert.SupCon.Final

end
-- ==== Proof.HostAfter.lean ====
/-
  The kernel program's host operations after its one region: the mean of the region's output column.

  The region leaves its output array [8192, 1] (one loss per anchor row); the program sums it over both axes from the
  word 0 (the real 0) and divides by the word 8192.0.  The total over the [8192, 1] index set is the sum over the rows
  of the one entry of each row.
-/
import proofs.«155762_j61460982005779_1_alg».proof.Proof.Gen.KernelIdeal.Frame
import proofs.«155762_j61460982005779_1_alg».proof.Proof.Spec
import Idealize.ShloMosaic.Lib.Pipeline.Value
import Idealize.ShloMosaic.Lib.ValueIdx
import Idealize.ShloMosaic.PureOps.Ideal.Laws

noncomputable section

open scoped BigOperators

namespace Cert.SupCon.Host

open Idealize.ShloMosaic Idealize.ShloMosaic.TcCoe Idealize.SL.Sem Idealize.ShloMosaic.StableHlo
open Cert.KernelIdeal Cert.KernelIdeal.Gen Cert.SupCon Idealize.ShloMosaic.ValueIdx

/-- The tail as a function of the region's output column: its total from the word 0, over the word 8192.0. -/
def tailOf (y : (⟨S8192x1, .f32⟩ : BufTy).Contents (Elt Ideal)) : (⟨S_, .f32⟩ : BufTy).Contents (Elt Ideal) :=
  Host.divf (Host.reduceAdd y (constant (F := Ideal) S_ .f32 0x00000000#32) reducesTo_S8192x1_S_d0_1 h_S_)
    (constant (F := Ideal) S_ .f32 0x46000000#32)

/-- The tail's value: the sum of the column's entries over the rows, divided by the word 8192.0. -/
theorem tailOf_apply (y : (⟨S8192x1, .f32⟩ : BufTy).Contents (Elt Ideal)) (i : S_.Idx) :
    tailOf y i = Ideal.div (∑ r : Fin 8192, y (ix2 r (0 : Fin 1))) (Ideal.ofBits .f32 0x46000000#32) := by
  unfold tailOf
  show Ideal.div (Host.reduceAdd y (constant (F := Ideal) S_ .f32 0x00000000#32) reducesTo_S8192x1_S_d0_1 h_S_ i)
    (Ideal.ofBits .f32 0x46000000#32) = _
  refine congrArg (Ideal.div · _) ?_
  simp only [Host.reduceAdd, Ideal.hostReduceAdd_def]
  rw [Ideal.hostReduceAdd_total reducesTo_S8192x1_S_d0_1 (fun b => b.elim0) y _ i]
  show Ideal.ofBits .f32 0x00000000#32 + _ = _
  rw [Ideal.ofBits_zero_f32, zero_add, ValueIdx.sum_idx2]
  exact Finset.sum_congr rfl fun r _ => Fin.sum_univ_one _

variable (m : (ℓ : Loc nD τ sig) → Buf (Elt Ideal) ℓ) (c : Dev nD)

/-- The region's output array after the run: window 5 of the pipeline, the column of the rows' losses. -/
abbrev outCol : (⟨S8192x1, .f32⟩ : BufTy).Contents (Elt Ideal) := (dats m 0 c).arrAt 5 cfg0.N

/-- The program's result after the host tail is the tail of the region's output column. -/
theorem tail_eq : Pipeline.afterTail₀ cfgs (dats m) 0 (V0 m) [hostOps1] c main_v15 = tailOf (outCol m c) := by
  unfold Pipeline.afterTail₀
  show StableHlo.after hostOps1 _ (Proc.devRef .tc main_v15) = _
  after_results
  exact congrArg tailOf (Pipeline.withArrays_arr spec0 launch0.win.arr_inj c _ _ 5)

/-- The program's result: the mean of the region's output column over the 8192 rows. -/
theorem tail_result : Pipeline.afterTail₀ cfgs (dats m) 0 (V0 m) [hostOps1] c main_v15
    = fun _ => Ideal.div (∑ r : Fin 8192, outCol m c (ix2 r (0 : Fin 1))) (Ideal.ofBits .f32 0x46000000#32) := by
  rw [tail_eq]
  exact funext fun i => tailOf_apply (outCol m c) i

end Cert.SupCon.Host

end
-- ==== Proof.KernelRun.lean ====
/-
  The kernel program's run, read: its result is the mean of the rows' losses, and the two arguments end as launched.

  After the region the program sums the output column and divides by the word 8192.0; the column holds the rows' losses
  (given that each writing point's block does), so the result is the specification's kernel result.
-/
import proofs.«155762_j61460982005779_1_alg».proof.Proof.Gen.KernelIdeal.Frame
import proofs.«155762_j61460982005779_1_alg».proof.Proof.Final
import proofs.«155762_j61460982005779_1_alg».proof.Proof.HostAfter

set_option maxRecDepth 16384

noncomputable section

open scoped BigOperators

namespace Cert.SupCon.KernelRun

open Idealize.ShloMosaic Idealize.ShloMosaic.TcCoe Idealize.ShloMosaic.ValueIdx Idealize.SL.Sem
open Idealize.ShloMosaic.Pipeline (Dat)
open Cert.KernelIdeal Cert.KernelIdeal.Gen Cert.SupCon Cert.SupCon.Blocks Cert.SupCon.Host Cert.SupCon.Final

variable (m : (ℓ : Loc nD τ sig) → Buf (Elt Ideal) ℓ) (ρ : Dev nD → PrngReg)

/-- The program's result from the column of losses: their mean over the 8192 rows. -/
theorem result_of (c : Dev nD) (hlast : LastHolds m c) :
    Pipeline.afterTail₀ cfgs (dats m) 0 (V0 m) [hostOps1] c main_v15
      = fun _ => kernResult (featOf m c) (labOf m c) :=
  (Host.tail_result m c).trans (funext fun _ =>
    congrArg (fun s => Ideal.div s (Ideal.ofBits .f32 0x46000000#32))
      (Finset.sum_congr rfl fun r _ => congrFun (final_of m c hlast) (ix2 r (0 : Fin 1))))

/-- The run: the result buffer ends at the kernel result of the two arguments, which end unchanged. -/
theorem run_of (hlast : ∀ c : Dev nD, LastHolds m c) :
    θ_run defs (onTc (τ := τ) (main (F := Ideal))) ⟨m, fun _ => 0, ρ⟩ fun r => ∀ c : Dev nD,
      r.2.mem ((c.tc : Thread nD τ).loc main_v15) = (fun _ => kernResult (featOf m c) (labOf m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v15 (Pipeline.mem_restRefs_of main_v15 (by decide) (by decide))).trans (result_of m c (hlast c)),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.SupCon.KernelRun

end
-- ==== Proof.Claims.lean ====
/-
  The five claims, assembled.

  The two kernel programs' frames are the generated ones; the reference has no region, so its frame is its run with the
  result dropped; nothing was rewritten by the idealization.  At the ideal instance the kernel program's result is the
  online recursion's mean of the rows' losses and the reference's is the whole-row one, over the same two argument
  arrays; under the precondition every feature is a real, and then the two means are equal.
-/
import proofs.«155762_j61460982005779_1_alg».proof.Defs
import proofs.«155762_j61460982005779_1_alg».proof.Proof.Gen.Kernel.Frame
import proofs.«155762_j61460982005779_1_alg».proof.Proof.Gen.KernelIdeal.Frame
import proofs.«155762_j61460982005779_1_alg».proof.Proof.Gen.ReferenceIdeal.Run
import proofs.«155762_j61460982005779_1_alg».proof.Proof.Gen.ReferenceIdeal.Read
import proofs.«155762_j61460982005779_1_alg».proof.Proof.Gen.Pre_finite_inputs
import proofs.«155762_j61460982005779_1_alg».proof.Proof.RefValue
import proofs.«155762_j61460982005779_1_alg».proof.Proof.Finite
import proofs.«155762_j61460982005779_1_alg».proof.Proof.AlgMain
import proofs.«155762_j61460982005779_1_alg».proof.Proof.Grid
import proofs.«155762_j61460982005779_1_alg».proof.Proof.KernelRun

noncomputable section

namespace Cert.Proof.Claims

open Idealize.ShloMosaic Idealize.ShloMosaic.TcCoe Idealize.SL.Sem
open Cert.SupCon Cert.SupCon.Host

theorem frame_Kernel :
    Cert.frame_Kernel (hKernel := Cert.Kernel.Gen.facts) (hPre_finite_inputs := Cert.Pre_finite_inputs.Gen.facts) :=
  fun m ρ _ => Cert.Kernel.Gen.frame m ρ

theorem frame_KernelIdeal :
    Cert.frame_KernelIdeal (hKernelIdeal := Cert.KernelIdeal.Gen.facts) (hPre_finite_inputs := Cert.Pre_finite_inputs.Gen.facts) :=
  fun m ρ _ => Cert.KernelIdeal.Gen.frame m ρ

theorem frame_ReferenceIdeal :
    Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

theorem preserves : Cert.preserves_Kernel_KernelIdeal := trivial

/-- Both programs end at the kernel result of the kernel program's two argument arrays. -/
theorem algebraic :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' hpre hagree
  refine ⟨fun c => fun _ => kernResult (featOf m c) (labOf m c),
    Cert.SupCon.KernelRun.run_of m ρ (fun c => Cert.SupCon.Grid.out_last m c), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v51_eq, Cert.SupCon.Ref.ref_result, (hagree c).1, (hagree c).2]
  funext _
  exact (Cert.SupCon.kernResult_eq_refResult (feat := featOf m c) (lab := labOf m c)
    (Cert.SupCon.finite_of_pre m hpre c)).symm

end Cert.Proof.Claims

end
-- ==== Proof.lean ====
/-
  The certificate of the supervised contrastive loss kernel against its reference.

  Both programs compute, for 8192 anchors (4096 samples in two views), the mean over the anchors of
  -((sum over the positives c of log-softmax(logit r c)) / (number of positives)), where the logit is
  (<x_r, x_c> - eps * [same label] * <x_r, x_r>) / temperature, the softmax runs over the columns c other than r,
  and the positives of r are the other anchors with r's label.  The reference takes whole rows.  The kernel walks each
  row block's 8192 columns in eight blocks of 1024, carrying in scratch a running maximum, a running exponential sum
  rescaled to that maximum, and the positives' running logit sum and count, and finishes each row with
  S1 / S0 - M - log L.

  The proof has three parts that meet in one specification of both sides over the argument arrays:
  the kernel program's result is the specification's block-by-block recursion (the body's found pieces read as
  values, an induction over the 64 grid points, the eight written blocks tiling the output, the mean taken after the
  region); the reference's result is the specification's whole-row form (its operations read one at a time); and the
  two forms are equal once every feature is finite, which the precondition gives: the blockwise maximum is the row's,
  rescaling by exp (old maximum - new maximum) keeps the exponential sum relative to the current maximum, the
  positives' count is at least one because each anchor's other view carries its label, and then
  (sum_c p_c * (x_c - M - log L)) / S0 = S1 / S0 - M - log L over the reals.
-/
import proofs.«155762_j61460982005779_1_alg».proof.Defs
import proofs.«155762_j61460982005779_1_alg».proof.Proof.Claims

noncomputable section

namespace Cert.Proof

/-- The certificate's claim: the three frames, the idealization's ledger (empty), and the equality of the two
    idealized programs' results. -/
theorem claim : Cert.Claim :=
  ⟨Cert.Kernel.Gen.facts, Cert.KernelIdeal.Gen.facts, Cert.ReferenceIdeal.Gen.facts, Cert.Pre_finite_inputs.Gen.facts,
    Cert.Proof.Claims.frame_Kernel, Cert.Proof.Claims.frame_KernelIdeal, Cert.Proof.Claims.frame_ReferenceIdeal,
    Cert.Proof.Claims.preserves, Cert.Proof.Claims.algebraic⟩

end Cert.Proof

end
